-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S8192x2048 : Shape := ⟨2, ![8192, 2048]⟩
abbrev S8192 : Shape := ⟨1, ![8192]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S8192 .f32) (main_arg5 : FVec F S8192x2048 .f32) (main_arg6 : FVec F S8192 .f32) (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  let main_v24 : FVec F S8192x2048 .f32 := Host.absf main_arg5
  let main_cst_8 : FVec F S_ .f32 := constant S_ .f32 0x7F800000#32
  let main_v25 : FVec F S8192x2048 .f32 := broadcastInDim S8192x2048 ![] bcast_S_S8192x2048 main_cst_8
  let main_v26 : IVec S8192x2048 1 := cmpf .olt main_v24 main_v25
  let main_c_9 : IVec S_ 1 := constantI S_ 1 1#1
  let main_v27 : IVec S_ 1 := (fun x v => Host.reduce IntOp.andi x v reducesTo_S8192x2048_S_d0_1 h_S_) main_v26 main_c_9
  let main_v28 : IVec S_ 1 := andi main_v23 main_v27
  let main_v29 : FVec F S8192 .f32 := Host.absf main_arg6
  let main_cst_10 : FVec F S_ .f32 := constant S_ .f32 0x7F800000#32
  let main_v30 : FVec F S8192 .f32 := broadcastInDim S8192 ![] bcast_S_S8192 main_cst_10
  let main_v31 : IVec S8192 1 := cmpf .olt main_v29 main_v30
  let main_c_11 : IVec S_ 1 := constantI S_ 1 1#1
  let main_v32 : IVec S_ 1 := (fun x v => Host.reduce IntOp.andi x v reducesTo_S8192_S_d0 h_S_) main_v31 main_c_11
  let main_v33 : IVec S_ 1 := andi main_v28 main_v32
  main_v33

def fn {F : FTy → Type} [FloatOps F] (main_arg0 : FVec F S4096x2048 .f32) (main_arg1 : FVec F S4096x2048 .f32) (main_arg2 : FVec F S4096x2048 .f32) (main_arg3 : FVec F S8192x2048 .f32) (main_arg4 : FVec F S8192 .f32) (main_arg5 : FVec F S8192x2048 .f32) (main_arg6 : FVec F S8192 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_arg4 main_arg5 main_arg6 main_v13 main_v16
-- ==== Kernel.lean ====
abbrev S4096x2048 : Shape := ⟨2, ![4096, 2048]⟩
abbrev S8192x2048 : Shape := ⟨2, ![8192, 2048]⟩
abbrev S8192 : Shape := ⟨1, ![8192]⟩
abbrev S4x2048x2048 : Shape := ⟨3, ![4, 2048, 2048]⟩
abbrev S4x2048 : Shape := ⟨2, ![4, 2048]⟩
abbrev S1024x1024 : Shape := ⟨2, ![1024, 1024]⟩
abbrev S4x256x1024 : Shape := ⟨3, ![4, 256, 1024]⟩
abbrev S4x256 : Shape := ⟨2, ![4, 256]⟩
abbrev S1024x256 : Shape := ⟨2, ![1024, 256]⟩
abbrev S1x256x1024 : Shape := ⟨3, ![1, 256, 1024]⟩
abbrev S256x1024 : Shape := ⟨2, ![256, 1024]⟩
abbrev S1x256 : Shape := ⟨2, ![1, 256]⟩
abbrev S256 : Shape := ⟨1, ![256]⟩

abbrev nBuf : Space → Nat
  | .hbm => 17
  | .vmem => 20
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S8192x2048, .f32⟩
  | .hbm, ⟨4, _⟩ => ⟨S8192, .f32⟩
  | .hbm, ⟨5, _⟩ => ⟨S8192x2048, .f32⟩
  | .hbm, ⟨6, _⟩ => ⟨S8192, .f32⟩
  | .hbm, ⟨7, _⟩ => ⟨S4096x2048, .bf16⟩
  | .hbm, ⟨8, _⟩ => ⟨S4096x2048, .bf16⟩
  | .hbm, ⟨9, _⟩ => ⟨S4x2048x2048, .f32⟩
  | .hbm, ⟨10, _⟩ => ⟨S4x2048x2048, .bf16⟩
  | .hbm, ⟨11, _⟩ => ⟨S4x2048x2048, .f32⟩
  | .hbm, ⟨12, _⟩ => ⟨S4x2048x2048, .bf16⟩
  | .hbm, ⟨13, _⟩ => ⟨S8192, .f32⟩
  | .hbm, ⟨14, _⟩ => ⟨S4x2048, .f32⟩
  | .hbm, ⟨15, _⟩ => ⟨S4096x2048, .f32⟩
  | .hbm, ⟨16, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S4x256x1024, .bf16⟩
  | .local _ .vmem, ⟨5, _⟩ => ⟨S4x256x1024, .bf16⟩
  | .local _ .vmem, ⟨6, _⟩ => ⟨S4x256x1024, .bf16⟩
  | .local _ .vmem, ⟨7, _⟩ => ⟨S4x256x1024, .bf16⟩
  | .local _ .vmem, ⟨8, _⟩ => ⟨S4x256, .f32⟩
  | .local _ .vmem, ⟨9, _⟩ => ⟨S4x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S1024x256, .f32⟩
  | .local _ .vmem, ⟨17, _⟩ => ⟨S1024x256, .f32⟩
  | .local _ .vmem, ⟨18, _⟩ => ⟨S1024x256, .f32⟩
  | .local _ .vmem, ⟨19, _⟩ => ⟨S1024x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![4, 8, 2], ![false, false, false]⟩

def k0_cond2 (i : grid0.Coords) : BitVec 1 :=
  let arg2 : BitVec 32 := BitVec.ofNat 32 (i 2).val
  let c1_i32 : BitVec 32 := 1#32
  let v55 : BitVec 1 := Scalar.cmpi .eq arg2 c1_i32
  let v56 : BitVec 32 := Scalar.extui v55
  let c0_i32_48 : BitVec 32 := 0#32
  let v57 : BitVec 1 := Scalar.cmpi .ne v56 c0_i32_48
  v57

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S4x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S4x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S4x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

class Facts₀ : Prop where
  bitsLt_bf16_f32 : FTy.bits .bf16 < FTy.bits .f32
  shapeCasts_S8192x2048_S4x2048x2048 : S8192x2048.ShapeCasts S4x2048x2048
  shapeCasts_S8192_S4x2048 : S8192.ShapeCasts S4x2048
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S4x256x1024_S1x256x1024_0_0_0 : ∀ a, (![0, 0, 0] : Fin 3 → Nat) a + S1x256x1024.size a ≤ S4x256x1024.size a
  h_S1x256x1024 : 0 < S1x256x1024.numel
  shapeCasts_S1x256x1024_S256x1024 : S1x256x1024.ShapeCasts S256x1024
  inb_S4x256x1024_S1x256x1024_1_0_0 : ∀ a, (![1, 0, 0] : Fin 3 → Nat) a + S1x256x1024.size a ≤ S4x256x1024.size a
  inb_S4x256x1024_S1x256x1024_2_0_0 : ∀ a, (![2, 0, 0] : Fin 3 → Nat) a + S1x256x1024.size a ≤ S4x256x1024.size a
  inb_S4x256x1024_S1x256x1024_3_0_0 : ∀ a, (![3, 0, 0] : Fin 3 → Nat) a + S1x256x1024.size a ≤ S4x256x1024.size a
  inb_S4x256_S1x256_0_0 : ∀ a, (![0, 0] : Fin 2 → Nat) a + S1x256.size a ≤ S4x256.size a
  h_S1x256 : 0 < S1x256.numel
  shapeCasts_S1x256_S256 : S1x256.ShapeCasts S256
  shapeCasts_S256_S1x256 : S256.ShapeCasts S1x256
  broadcasts_S1x256_S1024x256 : S1x256.Broadcasts S1024x256
  inb_S4x256_S1x256_1_0 : ∀ a, (![1, 0] : Fin 2 → Nat) a + S1x256.size a ≤ S4x256.size a
  inb_S4x256_S1x256_2_0 : ∀ a, (![2, 0] : Fin 2 → Nat) a + S1x256.size a ≤ S4x256.size a
  inb_S4x256_S1x256_3_0 : ∀ a, (![3, 0] : Fin 2 → Nat) a + S1x256.size a ≤ S4x256.size a
  dot_S1024x1024_S256x1024_S1024x256_1_1_0_0_n_n_wf : DotDims.WF S1024x1024 S256x1024 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x2048.size a
  hwx0_0 : ∀ i : grid0.Coords, EltTy.bits .bf16 = 32 ∨ (Rect.block (s := S4096x2048) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x2048.size a
  hwx0_1 : ∀ i : grid0.Coords, EltTy.bits .bf16 = 32 ∨ (Rect.block (s := S4096x2048) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x256x1024.size a ≤ S4x2048x2048.size a
  hwx0_2 : ∀ i : grid0.Coords, EltTy.bits .bf16 = 32 ∨ (Rect.block (s := S4x2048x2048) S4x256x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x256x1024.size a ≤ S4x2048x2048.size a
  hwx0_3 : ∀ i : grid0.Coords, EltTy.bits .bf16 = 32 ∨ (Rect.block (s := S4x2048x2048) S4x256x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x256.size a ≤ S4x2048.size a
  hwx0_4 : ∀ i : grid0.Coords, EltTy.bits .f32 = 32 ∨ (Rect.block (s := S4x2048) S4x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S4096x2048.size a
  hwx0_5 : ∀ i : grid0.Coords, EltTy.bits .f32 = 32 ∨ (Rect.block (s := S4096x2048) S1024x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x256.size a ≤ S4096x2048.size a
  hwx0_6 : ∀ i : grid0.Coords, EltTy.bits .f32 = 32 ∨ (Rect.block (s := S4096x2048) S1024x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x256.size a ≤ S4096x2048.size a
  hwx0_7 : ∀ i : grid0.Coords, EltTy.bits .f32 = 32 ∨ (Rect.block (s := S4096x2048) S1024x256.size (cc0_transform_7 i) (hinb0_7 i)).WholeWords (EltTy.packing .f32)

variable [Facts₀]

def dot_S1024x1024_S256x1024_S1024x256_1_1_0_0_n_n : DotDims S1024x1024 S256x1024 S1024x256 where
  lhsContracting := [1]
  rhsContracting := [1]
  lhsNonContracting := [0]
  rhsNonContracting := [0]
  lhsBatch := []
  rhsBatch := []
  wf := dot_S1024x1024_S256x1024_S1024x256_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S4x256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S4x256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S4x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S1024x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8_0) S1024x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v8_1) S1024x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

class Facts : Prop extends Facts₀ where

variable [Facts]
-- ==== ReferenceIdeal.lean ====
abbrev S4096x2048 : Shape := ⟨2, ![4096, 2048]⟩
abbrev S8192x2048 : Shape := ⟨2, ![8192, 2048]⟩
abbrev S8192 : Shape := ⟨1, ![8192]⟩
abbrev S4096x8192 : Shape := ⟨2, ![4096, 8192]⟩
abbrev S1x8192 : Shape := ⟨2, ![1, 8192]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S8192x2048, .f32⟩
  | .hbm, ⟨4, _⟩ => ⟨S8192, .f32⟩
  | .hbm, ⟨5, _⟩ => ⟨S8192x2048, .f32⟩
  | .hbm, ⟨6, _⟩ => ⟨S8192, .f32⟩
  | .hbm, ⟨7, _⟩ => ⟨S4096x8192, .f32⟩
  | .hbm, ⟨8, _⟩ => ⟨S4096x8192, .f32⟩
  | .hbm, ⟨9, _⟩ => ⟨S4096x8192, .f32⟩
  | .hbm, ⟨10, _⟩ => ⟨S1x8192, .f32⟩
  | .hbm, ⟨11, _⟩ => ⟨S4096x8192, .f32⟩
  | .hbm, ⟨12, _⟩ => ⟨S4096x8192, .f32⟩
  | .hbm, ⟨13, _⟩ => ⟨S1x8192, .f32⟩
  | .hbm, ⟨14, _⟩ => ⟨S4096x8192, .f32⟩
  | .hbm, ⟨15, _⟩ => ⟨S4096x8192, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S_, .f32⟩
  | .hbm, ⟨39, _⟩ => ⟨S4096x2048, .f32⟩
  | .hbm, ⟨40, _⟩ => ⟨S4096x2048, .f32⟩
  | .hbm, ⟨41, _⟩ => ⟨S_, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  slices_S4096x8192_S4096x2048_0_0 : S4096x8192.Slices ![0, 0] S4096x2048
  slices_S4096x8192_S4096x2048_0_2048 : S4096x8192.Slices ![0, 2048] S4096x2048
  slices_S4096x8192_S4096x2048_0_4096 : S4096x8192.Slices ![0, 4096] S4096x2048
  slices_S4096x8192_S4096x2048_0_6144 : S4096x8192.Slices ![0, 6144] S4096x2048
  bcast_S_S4096x2048 : S_.BroadcastsInDim S4096x2048 (![] : Fin 0 → Fin S4096x2048.rank)
  dot_S4096x2048_S8192x2048_S4096x8192_1_1_0_0_n_n_wf : DotDims.WF S4096x2048 S8192x2048 S4096x8192 [1] [1] [0] [0] [] []

variable [Facts₀]

def dot_S4096x2048_S8192x2048_S4096x8192_1_1_0_0_n_n : DotDims S4096x2048 S8192x2048 S4096x8192 where
  lhsContracting := [1]
  rhsContracting := [1]
  lhsNonContracting := [0]
  rhsNonContracting := [0]
  lhsBatch := []
  rhsBatch := []
  wf := dot_S4096x2048_S8192x2048_S4096x8192_1_1_0_0_n_n_wf

class Facts : Prop extends Facts₀ where

variable [Facts]
-- ==== Proof.KernelPieces.lean ====
/-
  What the kernel body leaves behind at a grid point, as compositions of its printed arithmetic.

  The grid walks the contraction axis in two k-blocks. At the first the four gate accumulators are zeroed and each
  receives its block products; at the second each receives its second block of products, and the epilogue adds the
  gate biases, applies the logistic function / tanh, and stores the new cell and hidden blocks. Here each thing a
  point leaves (an accumulator after the first k-block; the two output blocks after the second) is identified with
  the corresponding composition of the body's pure terms over the blocks the point was given.
-/
import proofs.«129315_j25950192402731_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl

/-- Gate 0's accumulator after one step: what it held plus the x-part and the h-part of this k-block, the weights
    taken from slot 0 of the two weight blocks. -/
def acc0 (x0 x1 : Vec F S1024x1024 .bf16) (a : Vec F S1024x256 .f32) (x2 x3 : Vec F S4x256x1024 .bf16) : FVec F S1024x256 .f32 :=
  k0_pay9 x0 x1 a (View.ld x2 (Rect.unit (s := S4x256x1024) ![0, 0, 0] S1x256x1024.size inb_S4x256x1024_S1x256x1024_0_0_0)) (View.ld x3 (Rect.unit (s := S4x256x1024) ![0, 0, 0] S1x256x1024.size inb_S4x256x1024_S1x256x1024_0_0_0))

/-- Gate 1's accumulator after one step (weights from slot 1). -/
def acc1 (x0 x1 : Vec F S1024x1024 .bf16) (a : Vec F S1024x256 .f32) (x2 x3 : Vec F S4x256x1024 .bf16) : FVec F S1024x256 .f32 :=
  k0_pay11 a (k0_pay10 x0 x1 (View.ld x2 (Rect.unit (s := S4x256x1024) ![1, 0, 0] S1x256x1024.size inb_S4x256x1024_S1x256x1024_1_0_0)) (View.ld x3 (Rect.unit (s := S4x256x1024) ![1, 0, 0] S1x256x1024.size inb_S4x256x1024_S1x256x1024_1_0_0)))

/-- Gate 2's accumulator after one step (weights from slot 2). -/
def acc2 (x0 x1 : Vec F S1024x1024 .bf16) (a : Vec F S1024x256 .f32) (x2 x3 : Vec F S4x256x1024 .bf16) : FVec F S1024x256 .f32 :=
  k0_pay12 (k0_pay7 x0) (k0_pay8 x1) a (View.ld x2 (Rect.unit (s := S4x256x1024) ![2, 0, 0] S1x256x1024.size inb_S4x256x1024_S1x256x1024_2_0_0)) (View.ld x3 (Rect.unit (s := S4x256x1024) ![2, 0, 0] S1x256x1024.size inb_S4x256x1024_S1x256x1024_2_0_0))

/-- Gate 3's accumulator after one step (weights from slot 3). -/
def acc3 (x0 x1 : Vec F S1024x1024 .bf16) (a : Vec F S1024x256 .f32) (x2 x3 : Vec F S4x256x1024 .bf16) : FVec F S1024x256 .f32 :=
  k0_pay13 (k0_pay7 x0) (k0_pay8 x1) a (View.ld x2 (Rect.unit (s := S4x256x1024) ![3, 0, 0] S1x256x1024.size inb_S4x256x1024_S1x256x1024_3_0_0)) (View.ld x3 (Rect.unit (s := S4x256x1024) ![3, 0, 0] S1x256x1024.size inb_S4x256x1024_S1x256x1024_3_0_0))

/-- Row 0 of the bias block: gate 0's summed bias for the block's 256 columns. -/
def biasRow0 (x4 : Vec F S4x256 .f32) : Vec F S1x256 .f32 := View.ld x4 (Rect.unit (s := S4x256) ![0, 0] S1x256.size inb_S4x256_S1x256_0_0)

/-- Row 1 of the bias block: gate 1's summed bias for the block's 256 columns. -/
def biasRow1 (x4 : Vec F S4x256 .f32) : Vec F S1x256 .f32 := View.ld x4 (Rect.unit (s := S4x256) ![1, 0] S1x256.size inb_S4x256_S1x256_1_0)

/-- Row 2 of the bias block: gate 2's summed bias for the block's 256 columns. -/
def biasRow2 (x4 : Vec F S4x256 .f32) : Vec F S1x256 .f32 := View.ld x4 (Rect.unit (s := S4x256) ![2, 0] S1x256.size inb_S4x256_S1x256_2_0)

/-- Row 3 of the bias block: gate 3's summed bias for the block's 256 columns. -/
def biasRow3 (x4 : Vec F S4x256 .f32) : Vec F S1x256 .f32 := View.ld x4 (Rect.unit (s := S4x256) ![3, 0] S1x256.size inb_S4x256_S1x256_3_0)

/-- At the first k-block the body zeroes gate 0's accumulator, reads the zero block back and adds the block's
    products: the accumulator is left at one step from zero. -/
theorem scratchA0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S4x256x1024 .bf16) (harg5 : arg5.IsWhole) (arg6 : Memref sig .tc .vmem S4x256x1024 .bf16) (harg6 : arg6.IsWhole) (arg7 : Memref sig .tc .vmem S4x256 .f32) (harg7 : arg7.IsWhole) (arg8 : Memref sig .tc .vmem S1024x256 .f32) (harg8 : arg8.IsWhole) (arg9 : Memref sig .tc .vmem S1024x256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .f32) (harg14 : arg14.IsWhole) (hc0 : cond0_0 i) (hc1 : ¬cond0_1 i) (x0 : Vec F S1024x1024 .bf16) (x1 : Vec F S1024x1024 .bf16) (x2 : Vec F S4x256x1024 .bf16) (x3 : Vec F S4x256x1024 .bf16) (x4 : Vec F S4x256 .f32) (x5 : Vec F S1024x256 .f32) :
    sout0_A_0 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 = acc0 x0 x1 k0_pay3 x2 x3 := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 arg14 harg14 hc0 hc1 x0 x1 x2 x3 x4 x5)]
  unfold kernelRun0_A
  dsimp only
  sl_unfold_words
  rw [View.canon_cons_unit_zero (S := S1024x256) hz2, View.readCov_unit_zero (S := S1024x256) _ hz2]
  simp only [View.readAt_eq_ld, harg3.read_unread, harg4.read_unread, harg5.read_unread, harg6.read_unread, harg7.read_unread,
    harg8.read_unread, harg11.read_unread, harg12.read_unread, harg13.read_unread, harg14.read_unread,
    View.ld_unit_zero (S := S1024x1024) hz2, View.ld_unit_zero (S := S1024x256) hz2]
  rfl

/-- At the first k-block the body zeroes gate 1's accumulator, reads the zero block back and adds the block's
    products: the accumulator is left at one step from zero. -/
theorem scratchA1 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S4x256x1024 .bf16) (harg5 : arg5.IsWhole) (arg6 : Memref sig .tc .vmem S4x256x1024 .bf16) (harg6 : arg6.IsWhole) (arg7 : Memref sig .tc .vmem S4x256 .f32) (harg7 : arg7.IsWhole) (arg8 : Memref sig .tc .vmem S1024x256 .f32) (harg8 : arg8.IsWhole) (arg9 : Memref sig .tc .vmem S1024x256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .f32) (harg14 : arg14.IsWhole) (hc0 : cond0_0 i) (hc1 : ¬cond0_1 i) (x0 : Vec F S1024x1024 .bf16) (x1 : Vec F S1024x1024 .bf16) (x2 : Vec F S4x256x1024 .bf16) (x3 : Vec F S4x256x1024 .bf16) (x4 : Vec F S4x256 .f32) (x5 : Vec F S1024x256 .f32) :
    sout0_A_1 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 = acc1 x0 x1 k0_pay4 x2 x3 := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 arg13 harg13 arg14 harg14 hc0 hc1 x0 x1 x2 x3 x4 x5)]
  unfold kernelRun0_A
  dsimp only
  sl_unfold_words
  rw [View.canon_cons_unit_zero (S := S1024x256) hz2, View.readCov_unit_zero (S := S1024x256) _ hz2]
  simp only [View.readAt_eq_ld, harg3.read_unread, harg4.read_unread, harg5.read_unread, harg6.read_unread, harg7.read_unread,
    harg8.read_unread, harg11.read_unread, harg12.read_unread, harg13.read_unread, harg14.read_unread,
    View.ld_unit_zero (S := S1024x1024) hz2, View.ld_unit_zero (S := S1024x256) hz2]
  rfl

/-- At the first k-block the body zeroes gate 2's accumulator, reads the zero block back and adds the block's
    products: the accumulator is left at one step from zero. -/
theorem scratchA2 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S4x256x1024 .bf16) (harg5 : arg5.IsWhole) (arg6 : Memref sig .tc .vmem S4x256x1024 .bf16) (harg6 : arg6.IsWhole) (arg7 : Memref sig .tc .vmem S4x256 .f32) (harg7 : arg7.IsWhole) (arg8 : Memref sig .tc .vmem S1024x256 .f32) (harg8 : arg8.IsWhole) (arg9 : Memref sig .tc .vmem S1024x256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .f32) (harg14 : arg14.IsWhole) (hc0 : cond0_0 i) (hc1 : ¬cond0_1 i) (x0 : Vec F S1024x1024 .bf16) (x1 : Vec F S1024x1024 .bf16) (x2 : Vec F S4x256x1024 .bf16) (x3 : Vec F S4x256x1024 .bf16) (x4 : Vec F S4x256 .f32) (x5 : Vec F S1024x256 .f32) :
    sout0_A_2 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 = acc2 x0 x1 k0_pay5 x2 x3 := by
  unfold sout0_A_2
  rw [View.read_writes_eq_canon _ _ _ (scover0_A_2 c i arg3 harg3 arg4 harg4 arg5 harg5 arg6 harg6 arg7 harg7 arg8 harg8 arg9 harg9 arg10 harg10 arg11 harg11 arg12 harg12 arg13 harg13 arg14 harg14 hc0 hc1 x0 x1 x2 x3 x4 x5)]
  unfold kernelRun0_A
  dsimp only
  sl_unfold_words
  rw [View.canon_cons_unit_zero (S := S1024x256) hz2, View.readCov_unit_zero (S := S1024x256) _ hz2]
  simp only [View.readAt_eq_ld, harg3.read_unread, harg4.read_unread, harg5.read_unread, harg6.read_unread, harg7.read_unread,
    harg8.read_unread, harg11.read_unread, harg12.read_unread, harg13.read_unread, harg14.read_unread,
    View.ld_unit_zero (S := S1024x1024) hz2, View.ld_unit_zero (S := S1024x256) hz2]
  rfl

/-- At the first k-block the body zeroes gate 3's accumulator, reads the zero block back and adds the block's
    products: the accumulator is left at one step from zero. -/
theorem scratchA3 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S4x256x1024 .bf16) (harg5 : arg5.IsWhole) (arg6 : Memref sig .tc .vmem S4x256x1024 .bf16) (harg6 : arg6.IsWhole) (arg7 : Memref sig .tc .vmem S4x256 .f32) (harg7 : arg7.IsWhole) (arg8 : Memref sig .tc .vmem S1024x256 .f32) (harg8 : arg8.IsWhole) (arg9 : Memref sig .tc .vmem S1024x256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .f32) (harg14 : arg14.IsWhole) (hc0 : cond0_0 i) (hc1 : ¬cond0_1 i) (x0 : Vec F S1024x1024 .bf16) (x1 : Vec F S1024x1024 .bf16) (x2 : Vec F S4x256x1024 .bf16) (x3 : Vec F S4x256x1024 .bf16) (x4 : Vec F S4x256 .f32) (x5 : Vec F S1024x256 .f32) :
    sout0_A_3 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 = acc3 x0 x1 k0_pay6 x2 x3 := by
  unfold sout0_A_3
  rw [View.read_writes_eq_canon _ _ _ (scover0_A_3 c i arg3 harg3 arg4 harg4 arg5 harg5 arg6 harg6 arg7 harg7 arg8 harg8 arg9 harg9 arg10 harg10 arg11 harg11 arg12 harg12 arg13 harg13 arg14 harg14 hc0 hc1 x0 x1 x2 x3 x4 x5)]
  unfold kernelRun0_A
  dsimp only
  sl_unfold_words
  rw [View.canon_cons_unit_zero (S := S1024x256) hz2, View.readCov_unit_zero (S := S1024x256) _ hz2]
  simp only [View.readAt_eq_ld, harg3.read_unread, harg4.read_unread, harg5.read_unread, harg6.read_unread, harg7.read_unread,
    harg8.read_unread, harg11.read_unread, harg12.read_unread, harg13.read_unread, harg14.read_unread,
    View.ld_unit_zero (S := S1024x1024) hz2, View.ld_unit_zero (S := S1024x256) hz2]
  rfl

/-- At the second k-block each accumulator found at `xs_g` takes one more step, and the epilogue's hidden-state
    block is the printed epilogue term over the four stepped accumulators, the four bias rows and the cell block. -/
theorem hiddenB (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S4x256x1024 .bf16) (harg5 : arg5.IsWhole) (arg6 : Memref sig .tc .vmem S4x256x1024 .bf16) (harg6 : arg6.IsWhole) (arg7 : Memref sig .tc .vmem S4x256 .f32) (harg7 : arg7.IsWhole) (arg8 : Memref sig .tc .vmem S1024x256 .f32) (harg8 : arg8.IsWhole) (arg9 : Memref sig .tc .vmem S1024x256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .f32) (harg14 : arg14.IsWhole) (hc0 : ¬cond0_0 i) (hc1 : cond0_1 i) (x0 : Vec F S1024x1024 .bf16) (x1 : Vec F S1024x1024 .bf16) (x2 : Vec F S4x256x1024 .bf16) (x3 : Vec F S4x256x1024 .bf16) (x4 : Vec F S4x256 .f32) (x5 : Vec F S1024x256 .f32) (xs0 : Vec F S1024x256 .f32) (xs1 : Vec F S1024x256 .f32) (xs2 : Vec F S1024x256 .f32) (xs3 : Vec F S1024x256 .f32) :
    out0_B_6 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2 xs3
      = k0_pay2 (acc0 x0 x1 xs0 x2 x3) (biasRow0 x4) (acc1 x0 x1 xs1 x2 x3) (biasRow1 x4) (acc2 x0 x1 xs2 x2 x3) (biasRow2 x4)
          (acc3 x0 x1 xs3 x2 x3) (biasRow3 x4) x5 := by
  unfold out0_B_6
  rw [View.read_writes_eq_canon _ _ _ (cover0_B_6 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2 xs3)]
  unfold kernelRun0_B
  dsimp only
  sl_unfold_words
  rw [View.canon_unit_zero hz2]
  simp only [View.readAt_eq_ld, harg3.read_unread, harg4.read_unread, harg5.read_unread, harg6.read_unread, harg7.read_unread,
    harg8.read_unread, harg11.read_unread, harg12.read_unread, harg13.read_unread, harg14.read_unread,
    View.ld_unit_zero (S := S1024x1024) hz2, View.ld_unit_zero (S := S1024x256) hz2, View.readCov_unit_zero (S := S1024x256) _ hz2]
  rfl

/-- The same for the cell-state block. -/
theorem cellB (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S4x256x1024 .bf16) (harg5 : arg5.IsWhole) (arg6 : Memref sig .tc .vmem S4x256x1024 .bf16) (harg6 : arg6.IsWhole) (arg7 : Memref sig .tc .vmem S4x256 .f32) (harg7 : arg7.IsWhole) (arg8 : Memref sig .tc .vmem S1024x256 .f32) (harg8 : arg8.IsWhole) (arg9 : Memref sig .tc .vmem S1024x256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .f32) (harg14 : arg14.IsWhole) (hc0 : ¬cond0_0 i) (hc1 : cond0_1 i) (x0 : Vec F S1024x1024 .bf16) (x1 : Vec F S1024x1024 .bf16) (x2 : Vec F S4x256x1024 .bf16) (x3 : Vec F S4x256x1024 .bf16) (x4 : Vec F S4x256 .f32) (x5 : Vec F S1024x256 .f32) (xs0 : Vec F S1024x256 .f32) (xs1 : Vec F S1024x256 .f32) (xs2 : Vec F S1024x256 .f32) (xs3 : Vec F S1024x256 .f32) :
    out0_B_7 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2 xs3
      = k0_pay1 (acc0 x0 x1 xs0 x2 x3) (biasRow0 x4) (acc1 x0 x1 xs1 x2 x3) (biasRow1 x4) (acc2 x0 x1 xs2 x2 x3) (biasRow2 x4) x5 := by
  unfold out0_B_7
  rw [View.read_writes_eq_canon _ _ _ (cover0_B_7 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2 xs3)]
  unfold kernelRun0_B
  dsimp only
  sl_unfold_words
  rw [View.canon_unit_zero hz2]
  simp only [View.readAt_eq_ld, harg3.read_unread, harg4.read_unread, harg5.read_unread, harg6.read_unread, harg7.read_unread,
    harg8.read_unread, harg11.read_unread, harg12.read_unread, harg13.read_unread, harg14.read_unread,
    View.ld_unit_zero (S := S1024x1024) hz2, View.ld_unit_zero (S := S1024x256) hz2, View.readCov_unit_zero (S := S1024x256) _ hz2]
  rfl

end Cert.KernelIdeal.Pieces

end
-- ==== Proof.LibMatmulT.lean ====
/-
  A matrix product whose right operand is stored transposed, read at an index, at the ideal values.
  For dimension numbers that contract axis 1 of BOTH operands, keep axis 0 of each and have no batch
  axis, a `tpu.matmul` into the zero accumulator is, at the output index (p, q), the sum over k of
  x(p, k) · w(q, k).
-/
import Idealize.ShloMosaic.PureOps.Ideal.Laws
import Idealize.ShloMosaic.Lib.ValueIdx

noncomputable section

open scoped BigOperators

namespace Cert.LibMatmulT

open Idealize.ShloMosaic Idealize.ShloMosaic.ValueIdx

/-- The product of a matrix with the transpose of another, index by index. -/
def MMT {A K B : Nat} (x : (⟨2, ![A, K]⟩ : Shape).Idx → EReal) (w : (⟨2, ![B, K]⟩ : Shape).Idx → EReal) :
    (⟨2, ![A, B]⟩ : Shape).Idx → EReal :=
  fun i => ∑ k : Fin K, x (ix2 (i 0) k) * w (ix2 (i 1) k)

theorem MMT_apply {A K B : Nat} (x : (⟨2, ![A, K]⟩ : Shape).Idx → EReal) (w : (⟨2, ![B, K]⟩ : Shape).Idx → EReal)
    (p : Fin A) (q : Fin B) : MMT x w (ix2 p q) = ∑ k : Fin K, x (ix2 p k) * w (ix2 q k) := rfl

section Transposed
variable {A K B : Nat} (d : DotDims ⟨2, ![A, K]⟩ ⟨2, ![B, K]⟩ ⟨2, ![A, B]⟩)
  (hlb : d.lhsBatch = []) (hln : d.lhsNonContracting = [0]) (hlc : d.lhsContracting = [1])
  (hrb : d.rhsBatch = []) (hrn : d.rhsNonContracting = [0]) (hrc : d.rhsContracting = [1])

include hlc in
theorem contr_rank : d.contr.rank = 1 := by rw [d.rank_contr, hlc]; rfl

include hlc in
theorem contr_size : d.contr.size ⟨0, by rw [contr_rank d hlc]; exact Nat.one_pos⟩ = K := by
  have hp : 0 < d.lhsContracting.length := by rw [hlc]; exact Nat.one_pos
  have := d.size_contr 0 hp
  simp only [hlc] at this
  exact this

include hlb hln hlc in
/-- The left operand's index at output index `j` and contraction position `k` is (j₀, k). -/
theorem lhsIdx_eq (j : (⟨2, ![A, B]⟩ : Shape).Idx) (k : d.contr.Idx) :
    d.lhsIdx j k = ix2 (j 0) ((contrEquiv1 d K (contr_rank d hlc) (contr_size d hlc)) k) := by
  funext a; apply Fin.ext
  match a with
  | ⟨0, _⟩ =>
    show (d.lhsIdx j k 0).val = (j 0).val
    have h0b : (0 : Fin (⟨2, ![A, K]⟩ : Shape).rank) ∉ d.lhsBatch := by rw [hlb]; exact List.not_mem_nil
    have h0n : (0 : Fin (⟨2, ![A, K]⟩ : Shape).rank) ∈ d.lhsNonContracting := by rw [hln]; exact List.mem_singleton.mpr rfl
    unfold DotDims.lhsIdx
    rw [dif_neg h0b, dif_pos h0n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln])
  | ⟨1, _⟩ =>
    show (d.lhsIdx j k 1).val = _
    rw [d.lhsIdx_val_of_single hlc j k]
    simp [contrEquiv1]

include hrb hrn hrc hlb hln hlc in
/-- The right operand's index at output index `j` and contraction position `k` is (j₁, k). -/
theorem rhsIdx_eq (j : (⟨2, ![A, B]⟩ : Shape).Idx) (k : d.contr.Idx) :
    d.rhsIdx j k = ix2 (j 1) ((contrEquiv1 d K (contr_rank d hlc) (contr_size d hlc)) k) := by
  funext a; apply Fin.ext
  match a with
  | ⟨0, _⟩ =>
    show (d.rhsIdx j k 0).val = (j 1).val
    have h0b : (0 : Fin (⟨2, ![B, K]⟩ : Shape).rank) ∉ d.rhsBatch := by rw [hrb]; exact List.not_mem_nil
    have h0n : (0 : Fin (⟨2, ![B, K]⟩ : Shape).rank) ∈ d.rhsNonContracting := by rw [hrn]; exact List.mem_singleton.mpr rfl
    unfold DotDims.rhsIdx
    rw [dif_neg h0b, dif_pos h0n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln, hrn])
  | ⟨1, _⟩ =>
    show (d.rhsIdx j k 1).val = _
    rw [d.rhsIdx_val_of_single hrc j k]
    simp [contrEquiv1]

include hrb hrn hrc hlb hln hlc in
/-- The contraction's sum is the product with the transpose at the index. -/
theorem transposed_sum (x : (⟨2, ![A, K]⟩ : Shape).Idx → EReal) (w : (⟨2, ![B, K]⟩ : Shape).Idx → EReal)
    (j : (⟨2, ![A, B]⟩ : Shape).Idx) :
    ∑ k : d.contr.Idx, x (d.lhsIdx j k) * w (d.rhsIdx j k) = MMT x w j := by
  unfold MMT
  rw [← Equiv.sum_comp (contrEquiv1 d K (contr_rank d hlc) (contr_size d hlc)) (fun k' => x (ix2 (j 0) k') * w (ix2 (j 1) k'))]
  refine Finset.sum_congr rfl fun k _ => ?_
  rw [lhsIdx_eq d hlb hln hlc j k, rhsIdx_eq d hlb hln hlc hrb hrn hrc j k]
  rfl

include hrb hrn hrc hlb hln hlc in
/-- A `tpu.matmul` into the zero accumulator is the product with the transpose. -/
theorem matmul_zero_eq {φ₁ φ₂ : FTy} (prec : Option ContractPrecision) (x : FVec Ideal ⟨2, ![A, K]⟩ φ₁) (w : FVec Ideal ⟨2, ![B, K]⟩ φ₂) :
    FloatOps.matmul d prec x w (constant ⟨2, ![A, B]⟩ .f32 0x00000000#32) = MMT x w := by
  funext j
  rw [Ideal.matmul_constant_zero_apply]
  exact transposed_sum d hlb hln hlc hrb hrn hrc x w j

end Transposed

end Cert.LibMatmulT

end
-- ==== Proof.KernelBlock.lean ====
/-
  The body's arithmetic read at one entry of a 1024 by 256 block, on the extended reals.

  A gate accumulator's step adds, at (p, q), the two block products ∑ₖ x(p,k)·Wx(q,k) + ∑ₖ h(p,k)·Wh(q,k) over the 1024
  columns of the k-block, the weights being slot g of the staged 4 × 256 × 1024 weight blocks; the epilogue adds to
  each accumulator its bias row (one row broadcast down the 1024 rows), applies the logistic function or tanh, and
  combines the gates with the cell block entry by entry.
-/
import proofs.«129315_j25950192402731_2_alg».proof.Proof.KernelPieces
import proofs.«129315_j25950192402731_2_alg».proof.Proof.LibMatmulT
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx

namespace Cert.KernelIdeal.Block

open Cert.KernelIdeal Cert.KernelIdeal.Gen Cert.KernelIdeal.Pieces Cert.LibMatmulT

/-- Slot `g` of a staged weight block, as a 256 by 1024 matrix. -/
def slot (g : Fin 4) (w : S4x256x1024.Idx → EReal) : S256x1024.Idx → EReal := fun i => w (ix3 g (i 0) (i 1))

theorem slot_apply (g : Fin 4) (w : S4x256x1024.Idx → EReal) (q : Fin 256) (k : Fin 1024) :
    slot g w (ix2 q k) = w (ix3 g q k) := rfl

theorem slot0_eq (w : Vec Ideal S4x256x1024 .bf16) :
    (shapeCast S256x1024 (View.ld w (Rect.unit (s := S4x256x1024) ![0, 0, 0] S1x256x1024.size inb_S4x256x1024_S1x256x1024_0_0_0)) shapeCasts_S1x256x1024_S256x1024 : S256x1024.Idx → EReal) = slot 0 w := by
  funext i
  obtain ⟨q, k, rfl⟩ : ∃ (q : Fin 256) (k : Fin 1024), i = ix2 q k := ⟨i 0, i 1, eq_ix2 i⟩
  rw [shapeCast_1ab_ab_apply]
  show w _ = w (ix3 (0 : Fin 4) q k)
  refine congrArg w (funext fun a => Fin.ext ?_)
  match a with
  | ⟨0, _⟩ => rfl
  | ⟨1, _⟩ => show 0 + 1 * q.val = q.val; omega
  | ⟨2, _⟩ => show 0 + 1 * k.val = k.val; omega

theorem slot1_eq (w : Vec Ideal S4x256x1024 .bf16) :
    (shapeCast S256x1024 (View.ld w (Rect.unit (s := S4x256x1024) ![1, 0, 0] S1x256x1024.size inb_S4x256x1024_S1x256x1024_1_0_0)) shapeCasts_S1x256x1024_S256x1024 : S256x1024.Idx → EReal) = slot 1 w := by
  funext i
  obtain ⟨q, k, rfl⟩ : ∃ (q : Fin 256) (k : Fin 1024), i = ix2 q k := ⟨i 0, i 1, eq_ix2 i⟩
  rw [shapeCast_1ab_ab_apply]
  show w _ = w (ix3 (1 : Fin 4) q k)
  refine congrArg w (funext fun a => Fin.ext ?_)
  match a with
  | ⟨0, _⟩ => rfl
  | ⟨1, _⟩ => show 0 + 1 * q.val = q.val; omega
  | ⟨2, _⟩ => show 0 + 1 * k.val = k.val; omega

theorem slot2_eq (w : Vec Ideal S4x256x1024 .bf16) :
    (shapeCast S256x1024 (View.ld w (Rect.unit (s := S4x256x1024) ![2, 0, 0] S1x256x1024.size inb_S4x256x1024_S1x256x1024_2_0_0)) shapeCasts_S1x256x1024_S256x1024 : S256x1024.Idx → EReal) = slot 2 w := by
  funext i
  obtain ⟨q, k, rfl⟩ : ∃ (q : Fin 256) (k : Fin 1024), i = ix2 q k := ⟨i 0, i 1, eq_ix2 i⟩
  rw [shapeCast_1ab_ab_apply]
  show w _ = w (ix3 (2 : Fin 4) q k)
  refine congrArg w (funext fun a => Fin.ext ?_)
  match a with
  | ⟨0, _⟩ => rfl
  | ⟨1, _⟩ => show 0 + 1 * q.val = q.val; omega
  | ⟨2, _⟩ => show 0 + 1 * k.val = k.val; omega

theorem slot3_eq (w : Vec Ideal S4x256x1024 .bf16) :
    (shapeCast S256x1024 (View.ld w (Rect.unit (s := S4x256x1024) ![3, 0, 0] S1x256x1024.size inb_S4x256x1024_S1x256x1024_3_0_0)) shapeCasts_S1x256x1024_S256x1024 : S256x1024.Idx → EReal) = slot 3 w := by
  funext i
  obtain ⟨q, k, rfl⟩ : ∃ (q : Fin 256) (k : Fin 1024), i = ix2 q k := ⟨i 0, i 1, eq_ix2 i⟩
  rw [shapeCast_1ab_ab_apply]
  show w _ = w (ix3 (3 : Fin 4) q k)
  refine congrArg w (funext fun a => Fin.ext ?_)
  match a with
  | ⟨0, _⟩ => rfl
  | ⟨1, _⟩ => show 0 + 1 * q.val = q.val; omega
  | ⟨2, _⟩ => show 0 + 1 * k.val = k.val; omega

theorem biasRow0_apply (b4 : Vec Ideal S4x256 .f32) (q : Fin 256) :
    (biasRow0 b4 : S1x256.Idx → EReal) (ix2 (0 : Fin 1) q) = b4 (ix2 (0 : Fin 4) q) := by
  show b4 _ = b4 (ix2 (0 : Fin 4) q)
  refine congrArg b4 (funext fun a => Fin.ext ?_)
  match a with
  | ⟨0, _⟩ => rfl
  | ⟨1, _⟩ => show 0 + 1 * q.val = q.val; omega

theorem biasRow1_apply (b4 : Vec Ideal S4x256 .f32) (q : Fin 256) :
    (biasRow1 b4 : S1x256.Idx → EReal) (ix2 (0 : Fin 1) q) = b4 (ix2 (1 : Fin 4) q) := by
  show b4 _ = b4 (ix2 (1 : Fin 4) q)
  refine congrArg b4 (funext fun a => Fin.ext ?_)
  match a with
  | ⟨0, _⟩ => rfl
  | ⟨1, _⟩ => show 0 + 1 * q.val = q.val; omega

theorem biasRow2_apply (b4 : Vec Ideal S4x256 .f32) (q : Fin 256) :
    (biasRow2 b4 : S1x256.Idx → EReal) (ix2 (0 : Fin 1) q) = b4 (ix2 (2 : Fin 4) q) := by
  show b4 _ = b4 (ix2 (2 : Fin 4) q)
  refine congrArg b4 (funext fun a => Fin.ext ?_)
  match a with
  | ⟨0, _⟩ => rfl
  | ⟨1, _⟩ => show 0 + 1 * q.val = q.val; omega

theorem biasRow3_apply (b4 : Vec Ideal S4x256 .f32) (q : Fin 256) :
    (biasRow3 b4 : S1x256.Idx → EReal) (ix2 (0 : Fin 1) q) = b4 (ix2 (3 : Fin 4) q) := by
  show b4 _ = b4 (ix2 (3 : Fin 4) q)
  refine congrArg b4 (funext fun a => Fin.ext ?_)
  match a with
  | ⟨0, _⟩ => rfl
  | ⟨1, _⟩ => show 0 + 1 * q.val = q.val; omega

/-- A block product into the zero accumulator is the sum over the k-block's columns. -/
theorem mm_zero (x : FVec Ideal S1024x1024 .bf16) (w : FVec Ideal S256x1024 .bf16) :
    FloatOps.matmul (F := Ideal) dot_S1024x1024_S256x1024_S1024x256_1_1_0_0_n_n none x w
      (constant (F := Ideal) S1024x256 .f32 0x00000000#32) = MMT x w :=
  matmul_zero_eq (A := 1024) (K := 1024) (B := 256) dot_S1024x1024_S256x1024_S1024x256_1_1_0_0_n_n rfl rfl rfl rfl rfl rfl none x w

theorem acc0_apply (x0 x1 : Vec Ideal S1024x1024 .bf16) (a : Vec Ideal S1024x256 .f32) (w2 w3 : Vec Ideal S4x256x1024 .bf16)
    (p : Fin 1024) (q : Fin 256) :
    (acc0 x0 x1 a w2 w3 : S1024x256.Idx → EReal) (ix2 p q)
      = a (ix2 p q) + (MMT x0 (slot 0 w2) (ix2 p q) + MMT x1 (slot 0 w3) (ix2 p q)) := by
  unfold acc0 k0_pay9 k0_pay7 k0_pay8
  simp only [shapeCast_self, matmul, addf_apply, slot0_eq]
  rw [mm_zero, mm_zero]

theorem acc1_apply (x0 x1 : Vec Ideal S1024x1024 .bf16) (a : Vec Ideal S1024x256 .f32) (w2 w3 : Vec Ideal S4x256x1024 .bf16)
    (p : Fin 1024) (q : Fin 256) :
    (acc1 x0 x1 a w2 w3 : S1024x256.Idx → EReal) (ix2 p q)
      = a (ix2 p q) + (MMT x0 (slot 1 w2) (ix2 p q) + MMT x1 (slot 1 w3) (ix2 p q)) := by
  unfold acc1 k0_pay11 k0_pay10 k0_pay7 k0_pay8
  simp only [shapeCast_self, matmul, addf_apply, slot1_eq]
  rw [mm_zero, mm_zero]

theorem acc2_apply (x0 x1 : Vec Ideal S1024x1024 .bf16) (a : Vec Ideal S1024x256 .f32) (w2 w3 : Vec Ideal S4x256x1024 .bf16)
    (p : Fin 1024) (q : Fin 256) :
    (acc2 x0 x1 a w2 w3 : S1024x256.Idx → EReal) (ix2 p q)
      = a (ix2 p q) + (MMT x0 (slot 2 w2) (ix2 p q) + MMT x1 (slot 2 w3) (ix2 p q)) := by
  unfold acc2 k0_pay12 k0_pay7 k0_pay8
  simp only [shapeCast_self, matmul, addf_apply, slot2_eq]
  rw [mm_zero, mm_zero]

theorem acc3_apply (x0 x1 : Vec Ideal S1024x1024 .bf16) (a : Vec Ideal S1024x256 .f32) (w2 w3 : Vec Ideal S4x256x1024 .bf16)
    (p : Fin 1024) (q : Fin 256) :
    (acc3 x0 x1 a w2 w3 : S1024x256.Idx → EReal) (ix2 p q)
      = a (ix2 p q) + (MMT x0 (slot 3 w2) (ix2 p q) + MMT x1 (slot 3 w3) (ix2 p q)) := by
  unfold acc3 k0_pay13 k0_pay7 k0_pay8
  simp only [shapeCast_self, matmul, addf_apply, slot3_eq]
  rw [mm_zero, mm_zero]

/-- A reset accumulator holds zero. -/
theorem zero3_apply (j : S1024x256.Idx) : (k0_pay3 (F := Ideal) : S1024x256.Idx → EReal) j = 0 := by
  unfold k0_pay3; rw [shapeCast_self]; exact Ideal.ofBits_zero_f32
theorem zero4_apply (j : S1024x256.Idx) : (k0_pay4 (F := Ideal) : S1024x256.Idx → EReal) j = 0 := by
  unfold k0_pay4; rw [shapeCast_self]; exact Ideal.ofBits_zero_f32
theorem zero5_apply (j : S1024x256.Idx) : (k0_pay5 (F := Ideal) : S1024x256.Idx → EReal) j = 0 := by
  unfold k0_pay5; rw [shapeCast_self]; exact Ideal.ofBits_zero_f32
theorem zero6_apply (j : S1024x256.Idx) : (k0_pay6 (F := Ideal) : S1024x256.Idx → EReal) j = 0 := by
  unfold k0_pay6; rw [shapeCast_self]; exact Ideal.ofBits_zero_f32

theorem logistic_apply {s : Shape} {φ : FTy} (v : FVec Ideal s φ) (i : s.Idx) : logistic v i = Ideal.logistic (v i) := rfl
theorem tanh_apply {s : Shape} {φ : FTy} (v : FVec Ideal s φ) (i : s.Idx) : tanh v i = Ideal.tanh (v i) := rfl

/-- A bias row, cast to a vector and back to a row and broadcast down the block's rows, reads the row's entry. -/
theorem biasBcast_apply (r : Vec Ideal S1x256 .f32) (p : Fin 1024) (q : Fin 256) :
    (broadcastTo S1024x256 (shapeCast S1x256 (shapeCast S256 r shapeCasts_S1x256_S256) shapeCasts_S256_S1x256)
      broadcasts_S1x256_S1024x256 : S1024x256.Idx → EReal) (ix2 p q) = r (ix2 (0 : Fin 1) q) := by
  rw [broadcastTo_1b_ab_apply, shapeCast_shapeCast]

/-- The new cell block at an entry. -/
theorem pay1_apply (a0 : Vec Ideal S1024x256 .f32) (r0 : Vec Ideal S1x256 .f32) (a1 : Vec Ideal S1024x256 .f32) (r1 : Vec Ideal S1x256 .f32)
    (a2 : Vec Ideal S1024x256 .f32) (r2 : Vec Ideal S1x256 .f32) (cb : Vec Ideal S1024x256 .f32) (p : Fin 1024) (q : Fin 256) :
    (k0_pay1 a0 r0 a1 r1 a2 r2 cb : S1024x256.Idx → EReal) (ix2 p q)
      = Ideal.logistic (a1 (ix2 p q) + r1 (ix2 (0 : Fin 1) q)) * cb (ix2 p q)
        + Ideal.logistic (a0 (ix2 p q) + r0 (ix2 (0 : Fin 1) q)) * Ideal.tanh (a2 (ix2 p q) + r2 (ix2 (0 : Fin 1) q)) := by
  unfold k0_pay1
  simp only [addf_apply, mulf_apply, logistic_apply, tanh_apply, biasBcast_apply]

/-- The new hidden block at an entry. -/
theorem pay2_apply (a0 : Vec Ideal S1024x256 .f32) (r0 : Vec Ideal S1x256 .f32) (a1 : Vec Ideal S1024x256 .f32) (r1 : Vec Ideal S1x256 .f32)
    (a2 : Vec Ideal S1024x256 .f32) (r2 : Vec Ideal S1x256 .f32) (a3 : Vec Ideal S1024x256 .f32) (r3 : Vec Ideal S1x256 .f32)
    (cb : Vec Ideal S1024x256 .f32) (p : Fin 1024) (q : Fin 256) :
    (k0_pay2 a0 r0 a1 r1 a2 r2 a3 r3 cb : S1024x256.Idx → EReal) (ix2 p q)
      = Ideal.logistic (a3 (ix2 p q) + r3 (ix2 (0 : Fin 1) q))
        * Ideal.tanh ((k0_pay1 a0 r0 a1 r1 a2 r2 cb : S1024x256.Idx → EReal) (ix2 p q)) := by
  unfold k0_pay2
  simp only [addf_apply, mulf_apply, logistic_apply, tanh_apply, biasBcast_apply]

end Cert.KernelIdeal.Block

end
-- ==== Proof.GateSpec.lean ====
/-
  The LSTM cell as one function of the argument arrays, index by index, on the extended reals, and the law that
  joins the two arrangements of its pre-activation.

  For a batch row `b` and a hidden column `j`, gate `g` (0 = input, 1 = forget, 2 = candidate, 3 = output) reads row
  `g·2048 + j` of the stacked weights and biases; its pre-activation is
      z g b j = (∑ i, x b i · Wx (g·2048 + j) i) + (∑ i, h b i · Wh (g·2048 + j) i) + bx (g·2048 + j) + bh (g·2048 + j).
  The new cell state is  σ(z 1)·c + σ(z 0)·tanh (z 2)  and the new hidden state  σ(z 3)·tanh (new cell state), with
  σ the logistic function 1 / (1 + e^(-z)).

  Computed tile by tile the contraction axis is cut in two halves of 1024 columns: starting from zero, each half adds
  its x-part plus its h-part, and the two biases are added together first. Both arrangements are sums of the same
  terms; addition of extended reals is commutative and associative at the infinities too, so they agree without any
  finiteness assumption.
-/
import Idealize.ShloMosaic.PureOps.Ideal
import Idealize.ShloMosaic.Lib.ValueIdx

noncomputable section

open scoped BigOperators

namespace Cert.Lstm

open Idealize.ShloMosaic Idealize.ShloMosaic.ValueIdx

/-- An `a` by `b` array of extended reals. -/
abbrev Mat (a b : Nat) : Type := (⟨2, ![a, b]⟩ : Shape).Idx → EReal
/-- A length-`a` array of extended reals. -/
abbrev Vc (a : Nat) : Type := (⟨1, ![a]⟩ : Shape).Idx → EReal

/-- Row `g·2048 + j` of the stacked weights: gate `g`'s row for hidden column `j`. -/
def gateRow (g : Fin 4) (j : Fin 2048) : Fin 8192 := ⟨g.val * 2048 + j.val, by omega⟩

/-- Column `k·1024 + i`: column `i` of half `k` of the contraction axis. -/
def halfCol (k : Fin 2) (i : Fin 1024) : Fin 2048 := ⟨k.val * 1024 + i.val, by omega⟩

/-- One operand pair's whole contraction: `∑ i, a b i · W n i`. -/
def dotRow (a : Mat 4096 2048) (W : Mat 8192 2048) (b : Fin 4096) (n : Fin 8192) : EReal :=
  ∑ i : Fin 2048, a (ix2 b i) * W (ix2 n i)

/-- The same contraction over one half of the columns. -/
def dotHalf (a : Mat 4096 2048) (W : Mat 8192 2048) (k : Fin 2) (b : Fin 4096) (n : Fin 8192) : EReal :=
  ∑ i : Fin 1024, a (ix2 b (halfCol k i)) * W (ix2 n (halfCol k i))

/-- A sum over the 2048 columns is the sum over the first 1024 plus the sum over the last 1024. -/
theorem sum_halves (f : Fin 2048 → EReal) :
    ∑ i : Fin 2048, f i = (∑ i : Fin 1024, f (halfCol 0 i)) + ∑ i : Fin 1024, f (halfCol 1 i) := by
  have h := Fin.sum_univ_add (a := 1024) (b := 1024) f
  refine h.trans ?_
  congr 1

theorem dotRow_halves (a : Mat 4096 2048) (W : Mat 8192 2048) (b : Fin 4096) (n : Fin 8192) :
    dotRow a W b n = dotHalf a W 0 b n + dotHalf a W 1 b n :=
  sum_halves fun i => a (ix2 b i) * W (ix2 n i)

section Cell
variable (x h c : Mat 4096 2048) (Wx Wh : Mat 8192 2048) (bx bh : Vc 8192)

/-- Gate `g`'s pre-activation at `(b, j)`, in the order the plain formula adds its four terms. -/
def pre (g : Fin 4) (b : Fin 4096) (j : Fin 2048) : EReal :=
  ((dotRow x Wx b (gateRow g j) + dotRow h Wh b (gateRow g j)) + bx (ix1 (gateRow g j))) + bh (ix1 (gateRow g j))

/-- The same pre-activation accumulated half by half from zero, the two biases added together first. -/
def preTiled (g : Fin 4) (b : Fin 4096) (j : Fin 2048) : EReal :=
  ((0 + (dotHalf x Wx 0 b (gateRow g j) + dotHalf h Wh 0 b (gateRow g j)))
      + (dotHalf x Wx 1 b (gateRow g j) + dotHalf h Wh 1 b (gateRow g j)))
    + (bx (ix1 (gateRow g j)) + bh (ix1 (gateRow g j)))

/-- The two arrangements add the same six terms. -/
theorem preTiled_eq (g : Fin 4) (b : Fin 4096) (j : Fin 2048) :
    preTiled x h Wx Wh bx bh g b j = pre x h Wx Wh bx bh g b j := by
  unfold preTiled pre
  rw [dotRow_halves x Wx, dotRow_halves h Wh, zero_add]
  ac_rfl

/-- The new cell state at `(b, j)`. -/
def cellNew (b : Fin 4096) (j : Fin 2048) : EReal :=
  Ideal.logistic (pre x h Wx Wh bx bh 1 b j) * c (ix2 b j)
    + Ideal.logistic (pre x h Wx Wh bx bh 0 b j) * Ideal.tanh (pre x h Wx Wh bx bh 2 b j)

/-- The new hidden state at `(b, j)`. -/
def hiddenNew (b : Fin 4096) (j : Fin 2048) : EReal :=
  Ideal.logistic (pre x h Wx Wh bx bh 3 b j) * Ideal.tanh (cellNew x h c Wx Wh bx bh b j)

/-- The new cell state as an array. -/
def cellArr : Mat 4096 2048 := fun i => cellNew x h c Wx Wh bx bh (i 0) (i 1)

/-- The new hidden state as an array. -/
def hiddenArr : Mat 4096 2048 := fun i => hiddenNew x h c Wx Wh bx bh (i 0) (i 1)

end Cell

end Cert.Lstm

end
-- ==== Proof.KernelEntry.lean ====
/-
  One entry of the two output blocks, given which array entries the point's blocks hold.

  Suppose row `p` of the two activation blocks holds row `r` of x and of h — the first k-block's columns 0..1023 in the
  blocks the first point was given, the second k-block's columns 1024..2047 in the second point's —, that slot `g`, row
  `q` of the weight blocks holds the matching halves of row `g·2048 + cl` of the stacked weights, that the bias block
  holds the summed biases of those rows, and that the cell block holds c at (r, cl). Then each gate's accumulator,
  stepped twice from zero, plus its bias row is that gate's pre-activation at (r, cl) — the two arrangements of the
  sum agree —, so the epilogue's entries at (p, q) are the new cell and hidden states at (r, cl).
-/
import proofs.«129315_j25950192402731_2_alg».proof.Proof.KernelBlock
import proofs.«129315_j25950192402731_2_alg».proof.Proof.GateSpec

noncomputable section

open scoped BigOperators
open Idealize.ShloMosaic Idealize.ShloMosaic.TcCoe Idealize.SL.Sem Idealize.ShloMosaic.ValueIdx

namespace Cert.KernelIdeal.Entry

open Cert.KernelIdeal Cert.KernelIdeal.Gen Cert.KernelIdeal.Pieces Cert.KernelIdeal.Block Cert.LibMatmulT

/-- Gate 0: two steps from zero plus the bias row is the pre-activation. -/
theorem gate0_entry (X H C : Lstm.Mat 4096 2048) (Wx Wh : Lstm.Mat 8192 2048) (bx bh : Lstm.Vc 8192)
    (y0 y1 x0 x1 : Vec Ideal S1024x1024 .bf16) (v2 v3 w2 w3 : Vec Ideal S4x256x1024 .bf16) (b4 : Vec Ideal S4x256 .f32)
    (cb : Vec Ideal S1024x256 .f32) (r : Fin 4096) (cl : Fin 2048) (p : Fin 1024) (q : Fin 256)
    (hy0 : ∀ k : Fin 1024, y0 (ix2 p k) = X (ix2 r (Lstm.halfCol 0 k))) (hy1 : ∀ k : Fin 1024, y1 (ix2 p k) = H (ix2 r (Lstm.halfCol 0 k)))
    (hx0 : ∀ k : Fin 1024, x0 (ix2 p k) = X (ix2 r (Lstm.halfCol 1 k))) (hx1 : ∀ k : Fin 1024, x1 (ix2 p k) = H (ix2 r (Lstm.halfCol 1 k)))
    (hv2 : ∀ (g : Fin 4) (k : Fin 1024), v2 (ix3 g q k) = Wx (ix2 (Lstm.gateRow g cl) (Lstm.halfCol 0 k)))
    (hv3 : ∀ (g : Fin 4) (k : Fin 1024), v3 (ix3 g q k) = Wh (ix2 (Lstm.gateRow g cl) (Lstm.halfCol 0 k)))
    (hw2 : ∀ (g : Fin 4) (k : Fin 1024), w2 (ix3 g q k) = Wx (ix2 (Lstm.gateRow g cl) (Lstm.halfCol 1 k)))
    (hw3 : ∀ (g : Fin 4) (k : Fin 1024), w3 (ix3 g q k) = Wh (ix2 (Lstm.gateRow g cl) (Lstm.halfCol 1 k)))
    (hb : ∀ g : Fin 4, b4 (ix2 g q) = bx (ix1 (Lstm.gateRow g cl)) + bh (ix1 (Lstm.gateRow g cl))) :
    (acc0 x0 x1 (acc0 y0 y1 (k0_pay3 (F := Ideal)) v2 v3) w2 w3 : S1024x256.Idx → EReal) (ix2 p q) + (biasRow0 b4 : S1x256.Idx → EReal) (ix2 (0 : Fin 1) q)
      = Lstm.pre X H Wx Wh bx bh 0 r cl := by
  rw [acc0_apply, acc0_apply, zero3_apply, biasRow0_apply, MMT_apply, MMT_apply, MMT_apply, MMT_apply, hb 0,
    ← Lstm.preTiled_eq]
  unfold Lstm.preTiled Lstm.dotHalf
  simp only [slot_apply, hy0, hy1, hx0, hx1, hv2, hv3, hw2, hw3]

/-- Gate 1: two steps from zero plus the bias row is the pre-activation. -/
theorem gate1_entry (X H C : Lstm.Mat 4096 2048) (Wx Wh : Lstm.Mat 8192 2048) (bx bh : Lstm.Vc 8192)
    (y0 y1 x0 x1 : Vec Ideal S1024x1024 .bf16) (v2 v3 w2 w3 : Vec Ideal S4x256x1024 .bf16) (b4 : Vec Ideal S4x256 .f32)
    (cb : Vec Ideal S1024x256 .f32) (r : Fin 4096) (cl : Fin 2048) (p : Fin 1024) (q : Fin 256)
    (hy0 : ∀ k : Fin 1024, y0 (ix2 p k) = X (ix2 r (Lstm.halfCol 0 k))) (hy1 : ∀ k : Fin 1024, y1 (ix2 p k) = H (ix2 r (Lstm.halfCol 0 k)))
    (hx0 : ∀ k : Fin 1024, x0 (ix2 p k) = X (ix2 r (Lstm.halfCol 1 k))) (hx1 : ∀ k : Fin 1024, x1 (ix2 p k) = H (ix2 r (Lstm.halfCol 1 k)))
    (hv2 : ∀ (g : Fin 4) (k : Fin 1024), v2 (ix3 g q k) = Wx (ix2 (Lstm.gateRow g cl) (Lstm.halfCol 0 k)))
    (hv3 : ∀ (g : Fin 4) (k : Fin 1024), v3 (ix3 g q k) = Wh (ix2 (Lstm.gateRow g cl) (Lstm.halfCol 0 k)))
    (hw2 : ∀ (g : Fin 4) (k : Fin 1024), w2 (ix3 g q k) = Wx (ix2 (Lstm.gateRow g cl) (Lstm.halfCol 1 k)))
    (hw3 : ∀ (g : Fin 4) (k : Fin 1024), w3 (ix3 g q k) = Wh (ix2 (Lstm.gateRow g cl) (Lstm.halfCol 1 k)))
    (hb : ∀ g : Fin 4, b4 (ix2 g q) = bx (ix1 (Lstm.gateRow g cl)) + bh (ix1 (Lstm.gateRow g cl))) :
    (acc1 x0 x1 (acc1 y0 y1 (k0_pay4 (F := Ideal)) v2 v3) w2 w3 : S1024x256.Idx → EReal) (ix2 p q) + (biasRow1 b4 : S1x256.Idx → EReal) (ix2 (0 : Fin 1) q)
      = Lstm.pre X H Wx Wh bx bh 1 r cl := by
  rw [acc1_apply, acc1_apply, zero4_apply, biasRow1_apply, MMT_apply, MMT_apply, MMT_apply, MMT_apply, hb 1,
    ← Lstm.preTiled_eq]
  unfold Lstm.preTiled Lstm.dotHalf
  simp only [slot_apply, hy0, hy1, hx0, hx1, hv2, hv3, hw2, hw3]

/-- Gate 2: two steps from zero plus the bias row is the pre-activation. -/
theorem gate2_entry (X H C : Lstm.Mat 4096 2048) (Wx Wh : Lstm.Mat 8192 2048) (bx bh : Lstm.Vc 8192)
    (y0 y1 x0 x1 : Vec Ideal S1024x1024 .bf16) (v2 v3 w2 w3 : Vec Ideal S4x256x1024 .bf16) (b4 : Vec Ideal S4x256 .f32)
    (cb : Vec Ideal S1024x256 .f32) (r : Fin 4096) (cl : Fin 2048) (p : Fin 1024) (q : Fin 256)
    (hy0 : ∀ k : Fin 1024, y0 (ix2 p k) = X (ix2 r (Lstm.halfCol 0 k))) (hy1 : ∀ k : Fin 1024, y1 (ix2 p k) = H (ix2 r (Lstm.halfCol 0 k)))
    (hx0 : ∀ k : Fin 1024, x0 (ix2 p k) = X (ix2 r (Lstm.halfCol 1 k))) (hx1 : ∀ k : Fin 1024, x1 (ix2 p k) = H (ix2 r (Lstm.halfCol 1 k)))
    (hv2 : ∀ (g : Fin 4) (k : Fin 1024), v2 (ix3 g q k) = Wx (ix2 (Lstm.gateRow g cl) (Lstm.halfCol 0 k)))
    (hv3 : ∀ (g : Fin 4) (k : Fin 1024), v3 (ix3 g q k) = Wh (ix2 (Lstm.gateRow g cl) (Lstm.halfCol 0 k)))
    (hw2 : ∀ (g : Fin 4) (k : Fin 1024), w2 (ix3 g q k) = Wx (ix2 (Lstm.gateRow g cl) (Lstm.halfCol 1 k)))
    (hw3 : ∀ (g : Fin 4) (k : Fin 1024), w3 (ix3 g q k) = Wh (ix2 (Lstm.gateRow g cl) (Lstm.halfCol 1 k)))
    (hb : ∀ g : Fin 4, b4 (ix2 g q) = bx (ix1 (Lstm.gateRow g cl)) + bh (ix1 (Lstm.gateRow g cl))) :
    (acc2 x0 x1 (acc2 y0 y1 (k0_pay5 (F := Ideal)) v2 v3) w2 w3 : S1024x256.Idx → EReal) (ix2 p q) + (biasRow2 b4 : S1x256.Idx → EReal) (ix2 (0 : Fin 1) q)
      = Lstm.pre X H Wx Wh bx bh 2 r cl := by
  rw [acc2_apply, acc2_apply, zero5_apply, biasRow2_apply, MMT_apply, MMT_apply, MMT_apply, MMT_apply, hb 2,
    ← Lstm.preTiled_eq]
  unfold Lstm.preTiled Lstm.dotHalf
  simp only [slot_apply, hy0, hy1, hx0, hx1, hv2, hv3, hw2, hw3]

/-- Gate 3: two steps from zero plus the bias row is the pre-activation. -/
theorem gate3_entry (X H C : Lstm.Mat 4096 2048) (Wx Wh : Lstm.Mat 8192 2048) (bx bh : Lstm.Vc 8192)
    (y0 y1 x0 x1 : Vec Ideal S1024x1024 .bf16) (v2 v3 w2 w3 : Vec Ideal S4x256x1024 .bf16) (b4 : Vec Ideal S4x256 .f32)
    (cb : Vec Ideal S1024x256 .f32) (r : Fin 4096) (cl : Fin 2048) (p : Fin 1024) (q : Fin 256)
    (hy0 : ∀ k : Fin 1024, y0 (ix2 p k) = X (ix2 r (Lstm.halfCol 0 k))) (hy1 : ∀ k : Fin 1024, y1 (ix2 p k) = H (ix2 r (Lstm.halfCol 0 k)))
    (hx0 : ∀ k : Fin 1024, x0 (ix2 p k) = X (ix2 r (Lstm.halfCol 1 k))) (hx1 : ∀ k : Fin 1024, x1 (ix2 p k) = H (ix2 r (Lstm.halfCol 1 k)))
    (hv2 : ∀ (g : Fin 4) (k : Fin 1024), v2 (ix3 g q k) = Wx (ix2 (Lstm.gateRow g cl) (Lstm.halfCol 0 k)))
    (hv3 : ∀ (g : Fin 4) (k : Fin 1024), v3 (ix3 g q k) = Wh (ix2 (Lstm.gateRow g cl) (Lstm.halfCol 0 k)))
    (hw2 : ∀ (g : Fin 4) (k : Fin 1024), w2 (ix3 g q k) = Wx (ix2 (Lstm.gateRow g cl) (Lstm.halfCol 1 k)))
    (hw3 : ∀ (g : Fin 4) (k : Fin 1024), w3 (ix3 g q k) = Wh (ix2 (Lstm.gateRow g cl) (Lstm.halfCol 1 k)))
    (hb : ∀ g : Fin 4, b4 (ix2 g q) = bx (ix1 (Lstm.gateRow g cl)) + bh (ix1 (Lstm.gateRow g cl))) :
    (acc3 x0 x1 (acc3 y0 y1 (k0_pay6 (F := Ideal)) v2 v3) w2 w3 : S1024x256.Idx → EReal) (ix2 p q) + (biasRow3 b4 : S1x256.Idx → EReal) (ix2 (0 : Fin 1) q)
      = Lstm.pre X H Wx Wh bx bh 3 r cl := by
  rw [acc3_apply, acc3_apply, zero6_apply, biasRow3_apply, MMT_apply, MMT_apply, MMT_apply, MMT_apply, hb 3,
    ← Lstm.preTiled_eq]
  unfold Lstm.preTiled Lstm.dotHalf
  simp only [slot_apply, hy0, hy1, hx0, hx1, hv2, hv3, hw2, hw3]

/-- The cell block's entry is the new cell state. -/
theorem cell_entry (X H C : Lstm.Mat 4096 2048) (Wx Wh : Lstm.Mat 8192 2048) (bx bh : Lstm.Vc 8192)
    (y0 y1 x0 x1 : Vec Ideal S1024x1024 .bf16) (v2 v3 w2 w3 : Vec Ideal S4x256x1024 .bf16) (b4 : Vec Ideal S4x256 .f32)
    (cb : Vec Ideal S1024x256 .f32) (r : Fin 4096) (cl : Fin 2048) (p : Fin 1024) (q : Fin 256)
    (hy0 : ∀ k : Fin 1024, y0 (ix2 p k) = X (ix2 r (Lstm.halfCol 0 k))) (hy1 : ∀ k : Fin 1024, y1 (ix2 p k) = H (ix2 r (Lstm.halfCol 0 k)))
    (hx0 : ∀ k : Fin 1024, x0 (ix2 p k) = X (ix2 r (Lstm.halfCol 1 k))) (hx1 : ∀ k : Fin 1024, x1 (ix2 p k) = H (ix2 r (Lstm.halfCol 1 k)))
    (hv2 : ∀ (g : Fin 4) (k : Fin 1024), v2 (ix3 g q k) = Wx (ix2 (Lstm.gateRow g cl) (Lstm.halfCol 0 k)))
    (hv3 : ∀ (g : Fin 4) (k : Fin 1024), v3 (ix3 g q k) = Wh (ix2 (Lstm.gateRow g cl) (Lstm.halfCol 0 k)))
    (hw2 : ∀ (g : Fin 4) (k : Fin 1024), w2 (ix3 g q k) = Wx (ix2 (Lstm.gateRow g cl) (Lstm.halfCol 1 k)))
    (hw3 : ∀ (g : Fin 4) (k : Fin 1024), w3 (ix3 g q k) = Wh (ix2 (Lstm.gateRow g cl) (Lstm.halfCol 1 k)))
    (hb : ∀ g : Fin 4, b4 (ix2 g q) = bx (ix1 (Lstm.gateRow g cl)) + bh (ix1 (Lstm.gateRow g cl)))
    (hc : cb (ix2 p q) = C (ix2 r cl)) :
    (k0_pay1 (acc0 x0 x1 (acc0 y0 y1 (k0_pay3 (F := Ideal)) v2 v3) w2 w3) (biasRow0 b4) (acc1 x0 x1 (acc1 y0 y1 (k0_pay4 (F := Ideal)) v2 v3) w2 w3) (biasRow1 b4)
        (acc2 x0 x1 (acc2 y0 y1 (k0_pay5 (F := Ideal)) v2 v3) w2 w3) (biasRow2 b4) cb : S1024x256.Idx → EReal) (ix2 p q)
      = Lstm.cellNew X H C Wx Wh bx bh r cl := by
  rw [pay1_apply, gate0_entry X H C Wx Wh bx bh y0 y1 x0 x1 v2 v3 w2 w3 b4 cb r cl p q hy0 hy1 hx0 hx1 hv2 hv3 hw2 hw3 hb, gate1_entry X H C Wx Wh bx bh y0 y1 x0 x1 v2 v3 w2 w3 b4 cb r cl p q hy0 hy1 hx0 hx1 hv2 hv3 hw2 hw3 hb, gate2_entry X H C Wx Wh bx bh y0 y1 x0 x1 v2 v3 w2 w3 b4 cb r cl p q hy0 hy1 hx0 hx1 hv2 hv3 hw2 hw3 hb, hc]
  rfl

/-- The hidden block's entry is the new hidden state. -/
theorem hidden_entry (X H C : Lstm.Mat 4096 2048) (Wx Wh : Lstm.Mat 8192 2048) (bx bh : Lstm.Vc 8192)
    (y0 y1 x0 x1 : Vec Ideal S1024x1024 .bf16) (v2 v3 w2 w3 : Vec Ideal S4x256x1024 .bf16) (b4 : Vec Ideal S4x256 .f32)
    (cb : Vec Ideal S1024x256 .f32) (r : Fin 4096) (cl : Fin 2048) (p : Fin 1024) (q : Fin 256)
    (hy0 : ∀ k : Fin 1024, y0 (ix2 p k) = X (ix2 r (Lstm.halfCol 0 k))) (hy1 : ∀ k : Fin 1024, y1 (ix2 p k) = H (ix2 r (Lstm.halfCol 0 k)))
    (hx0 : ∀ k : Fin 1024, x0 (ix2 p k) = X (ix2 r (Lstm.halfCol 1 k))) (hx1 : ∀ k : Fin 1024, x1 (ix2 p k) = H (ix2 r (Lstm.halfCol 1 k)))
    (hv2 : ∀ (g : Fin 4) (k : Fin 1024), v2 (ix3 g q k) = Wx (ix2 (Lstm.gateRow g cl) (Lstm.halfCol 0 k)))
    (hv3 : ∀ (g : Fin 4) (k : Fin 1024), v3 (ix3 g q k) = Wh (ix2 (Lstm.gateRow g cl) (Lstm.halfCol 0 k)))
    (hw2 : ∀ (g : Fin 4) (k : Fin 1024), w2 (ix3 g q k) = Wx (ix2 (Lstm.gateRow g cl) (Lstm.halfCol 1 k)))
    (hw3 : ∀ (g : Fin 4) (k : Fin 1024), w3 (ix3 g q k) = Wh (ix2 (Lstm.gateRow g cl) (Lstm.halfCol 1 k)))
    (hb : ∀ g : Fin 4, b4 (ix2 g q) = bx (ix1 (Lstm.gateRow g cl)) + bh (ix1 (Lstm.gateRow g cl)))
    (hc : cb (ix2 p q) = C (ix2 r cl)) :
    (k0_pay2 (acc0 x0 x1 (acc0 y0 y1 (k0_pay3 (F := Ideal)) v2 v3) w2 w3) (biasRow0 b4) (acc1 x0 x1 (acc1 y0 y1 (k0_pay4 (F := Ideal)) v2 v3) w2 w3) (biasRow1 b4)
        (acc2 x0 x1 (acc2 y0 y1 (k0_pay5 (F := Ideal)) v2 v3) w2 w3) (biasRow2 b4) (acc3 x0 x1 (acc3 y0 y1 (k0_pay6 (F := Ideal)) v2 v3) w2 w3) (biasRow3 b4) cb
        : S1024x256.Idx → EReal) (ix2 p q)
      = Lstm.hiddenNew X H C Wx Wh bx bh r cl := by
  rw [pay2_apply, gate3_entry X H C Wx Wh bx bh y0 y1 x0 x1 v2 v3 w2 w3 b4 cb r cl p q hy0 hy1 hx0 hx1 hv2 hv3 hw2 hw3 hb, cell_entry X H C Wx Wh bx bh y0 y1 x0 x1 v2 v3 w2 w3 b4 cb r cl p q hy0 hy1 hx0 hx1 hv2 hv3 hw2 hw3 hb hc]
  rfl

end Cert.KernelIdeal.Entry

end
-- ==== Proof.KernelArrays.lean ====
/-
  From blocks to arrays: after the run the two result arrays hold the new hidden and cell states.

  The grid has 4 · 8 · 2 points (bi, hi, ki), ki fastest. Point (bi, hi, ki) is given rows bi·1024.. of x and h and
  columns ki·1024.. of the contraction axis, rows hi·256.. of each gate's weights, the matching bias columns and the
  cell block (bi, hi); only the points with ki = 1 write their output blocks back, block (bi, hi) of each result. The
  accumulators such a point finds are what the point just before it — the same (bi, hi) at ki = 0 — left. The host
  prepares the windows' arrays: x and h unchanged in value, each weight matrix regrouped as 4 × 2048 × 2048 (row
  g·2048 + r becomes (g, r)), and the two bias vectors added and regrouped as 4 × 2048.
-/
import proofs.«129315_j25950192402731_2_alg».proof.Proof.KernelEntry
import proofs.«129315_j25950192402731_2_alg».proof.Proof.Gen.KernelIdeal.Value
import Idealize.ShloMosaic.Lib.StableHlo.Run
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen Cert.KernelIdeal.Pieces Cert.KernelIdeal.Block Cert.KernelIdeal.Entry

variable (m : (ℓ : Loc nD τ sig) → Buf (Elt Ideal) ℓ) (ρ : Dev nD → PrngReg)

/-! ## The arrays the windows read -/

theorem V_x (c : Dev nD) : (V m c main_v0 : S4096x2048.Idx → EReal) = m ((c : Thread nD τ).loc main_arg0) := by
  dsimp only [Gen.V, Gen.hostOps0]; after_results; rfl

theorem V_h (c : Dev nD) : (V m c main_v1 : S4096x2048.Idx → EReal) = m ((c : Thread nD τ).loc main_arg1) := by
  dsimp only [Gen.V, Gen.hostOps0]; after_results; rfl

theorem V_wx (c : Dev nD) : (V m c main_v3 : S4x2048x2048.Idx → EReal)
    = shapeCast S4x2048x2048 (m ((c : Thread nD τ).loc main_arg3)) shapeCasts_S8192x2048_S4x2048x2048 := by
  dsimp only [Gen.V, Gen.hostOps0]; after_results; rfl

theorem V_wh (c : Dev nD) : (V m c main_v5 : S4x2048x2048.Idx → EReal)
    = shapeCast S4x2048x2048 (m ((c : Thread nD τ).loc main_arg5)) shapeCasts_S8192x2048_S4x2048x2048 := by
  dsimp only [Gen.V, Gen.hostOps0]; after_results; rfl

theorem V_b (c : Dev nD) : (V m c main_v7 : S4x2048.Idx → EReal)
    = shapeCast S4x2048 (addf (F := Ideal) (φ := .f32) (m ((c : Thread nD τ).loc main_arg4)) (m ((c : Thread nD τ).loc main_arg6))) shapeCasts_S8192_S4x2048 := by
  dsimp only [Gen.V, Gen.hostOps0]; after_results; rfl

/-- The regrouped weights at (g, r, k) are the stacked weights at row g·2048 + r, column k. -/
theorem regroupW_apply (W : S8192x2048.Idx → EReal) (g : Fin 4) (r : Fin 2048) (k : Fin 2048) :
    shapeCast S4x2048x2048 W shapeCasts_S8192x2048_S4x2048x2048 (ix3 g r k) = W (ix2 (Lstm.gateRow g r) k) :=
  shapeCast_apply W _ _ _ (by
    rw [Shape.rowMajor_val_three, Shape.rowMajor_val_two]
    show (g.val * 2048 + r.val) * 2048 + k.val = (g.val * 2048 + r.val) * 2048 + k.val
    rfl)

/-- The regrouped bias sum at (g, r) is the sum of the two biases at g·2048 + r. -/
theorem regroupB_apply (bx bh : S8192.Idx → EReal) (g : Fin 4) (r : Fin 2048) :
    shapeCast S4x2048 (addf (F := Ideal) (φ := .f32) bx bh) shapeCasts_S8192_S4x2048 (ix2 g r)
      = bx (ix1 (Lstm.gateRow g r)) + bh (ix1 (Lstm.gateRow g r)) :=
  shapeCast_apply _ _ _ (ix1 (Lstm.gateRow g r)) (by
    rw [Shape.rowMajor_val_two, Shape.rowMajor_val_one]
    show g.val * 2048 + r.val = g.val * 2048 + r.val
    rfl)

/-! ## The index maps over the grid -/

/-- The point before `t` in the grid's order. -/
def prev (t : Fin cfg0.N) : Fin cfg0.N := ⟨t.val - 1, Nat.lt_of_le_of_lt (Nat.sub_le _ _) t.isLt⟩

/-- The output blocks' indices (bi, hi) stay in range, and the two outputs move together. -/
theorem idx_out : ∀ t : Fin cfg0.N, t.val % 2 = 1 →
    win0_6.index t (0 : Fin 2) ≤ 3 ∧ win0_6.index t (1 : Fin 2) ≤ 7
    ∧ win0_7.index t (0 : Fin 2) = win0_6.index t (0 : Fin 2) ∧ win0_7.index t (1 : Fin 2) = win0_6.index t (1 : Fin 2) :=
  (by decide +kernel : ∀ t : Fin grid0.N, t.val % 2 = 1 → _)

/-- Activation window 0: row block bi; column block 1 here and 0 at the point before. -/
theorem idx_a0 : ∀ t : Fin cfg0.N, t.val % 2 = 1 →
    win0_0.index t (0 : Fin 2) = win0_6.index t (0 : Fin 2) ∧ win0_0.index t (1 : Fin 2) = 1
    ∧ win0_0.index (prev t) (0 : Fin 2) = win0_6.index t (0 : Fin 2) ∧ win0_0.index (prev t) (1 : Fin 2) = 0 :=
  (by decide +kernel : ∀ t : Fin grid0.N, t.val % 2 = 1 → _)

/-- Activation window 1: row block bi; column block 1 here and 0 at the point before. -/
theorem idx_a1 : ∀ t : Fin cfg0.N, t.val % 2 = 1 →
    win0_1.index t (0 : Fin 2) = win0_6.index t (0 : Fin 2) ∧ win0_1.index t (1 : Fin 2) = 1
    ∧ win0_1.index (prev t) (0 : Fin 2) = win0_6.index t (0 : Fin 2) ∧ win0_1.index (prev t) (1 : Fin 2) = 0 :=
  (by decide +kernel : ∀ t : Fin grid0.N, t.val % 2 = 1 → _)

/-- Weight window 2: all four gate slots, row block hi; column block 1 here and 0 at the point before. -/
theorem idx_w2 : ∀ t : Fin cfg0.N, t.val % 2 = 1 →
    win0_2.index t (0 : Fin 3) = 0 ∧ win0_2.index t (1 : Fin 3) = win0_6.index t (1 : Fin 2) ∧ win0_2.index t (2 : Fin 3) = 1
    ∧ win0_2.index (prev t) (0 : Fin 3) = 0 ∧ win0_2.index (prev t) (1 : Fin 3) = win0_6.index t (1 : Fin 2) ∧ win0_2.index (prev t) (2 : Fin 3) = 0 :=
  (by decide +kernel : ∀ t : Fin grid0.N, t.val % 2 = 1 → _)

/-- Weight window 3: all four gate slots, row block hi; column block 1 here and 0 at the point before. -/
theorem idx_w3 : ∀ t : Fin cfg0.N, t.val % 2 = 1 →
    win0_3.index t (0 : Fin 3) = 0 ∧ win0_3.index t (1 : Fin 3) = win0_6.index t (1 : Fin 2) ∧ win0_3.index t (2 : Fin 3) = 1
    ∧ win0_3.index (prev t) (0 : Fin 3) = 0 ∧ win0_3.index (prev t) (1 : Fin 3) = win0_6.index t (1 : Fin 2) ∧ win0_3.index (prev t) (2 : Fin 3) = 0 :=
  (by decide +kernel : ∀ t : Fin grid0.N, t.val % 2 = 1 → _)

/-- The bias window: all four gate rows, column block hi. -/
theorem idx_b : ∀ t : Fin cfg0.N, t.val % 2 = 1 →
    win0_4.index t (0 : Fin 2) = 0 ∧ win0_4.index t (1 : Fin 2) = win0_6.index t (1 : Fin 2) :=
  (by decide +kernel : ∀ t : Fin grid0.N, t.val % 2 = 1 → _)

/-- The cell window moves with the outputs. -/
theorem idx_c : ∀ t : Fin cfg0.N, t.val % 2 = 1 →
    win0_5.index t (0 : Fin 2) = win0_6.index t (0 : Fin 2) ∧ win0_5.index t (1 : Fin 2) = win0_6.index t (1 : Fin 2) :=
  (by decide +kernel : ∀ t : Fin grid0.N, t.val % 2 = 1 → _)

/-- Every output block (bi, hi) is some second-k-block point's. -/
theorem idx_onto : ∀ (q0 : Fin 4) (q1 : Fin 8), ∃ t : Fin cfg0.N, t.val % 2 = 1 ∧ win0_6.index t = ![q0.val, q1.val] :=
  (by decide +kernel : ∀ (q0 : Fin 4) (q1 : Fin 8), ∃ t : Fin grid0.N, t.val % 2 = 1 ∧ win0_6.index t = ![q0.val, q1.val])

/-! ## The blocks a point is given, as entries of the arguments -/

section Reads
variable (c : Dev nD) (t : Fin cfg0.N) (h1 : t.val % 2 = 1)
include h1

/-- Row `p` of the x block here holds row `r` of the argument over the second half of the columns. -/
theorem x_read (p k : Fin 1024) (r : Fin 4096) (hr : r.val = win0_6.index t (0 : Fin 2) * 1024 + p.val) :
    (iblk m c 0 t : S1024x1024.Idx → EReal) (ix2 p k) = m ((c : Thread nD τ).loc main_arg0) (ix2 r (Lstm.halfCol 1 k)) := by
  obtain ⟨e0, e1, -, -⟩ := idx_a0 t h1
  show V m c main_v0 (((cfg0.win 0).blk t).view.emb (ix2 p k)) = _
  rw [V_x]
  refine congrArg _ (funext fun a => Fin.ext ?_)
  match a with
  | ⟨0, _⟩ => show win0_0.index t (0 : Fin 2) * 1024 + 1 * p.val = r.val; omega
  | ⟨1, _⟩ => show win0_0.index t (1 : Fin 2) * 1024 + 1 * k.val = 1 * 1024 + k.val; omega

/-- … and at the point before, over the first half of the columns. -/
theorem x_read_prev (p k : Fin 1024) (r : Fin 4096) (hr : r.val = win0_6.index t (0 : Fin 2) * 1024 + p.val) :
    (iblk m c 0 (prev t) : S1024x1024.Idx → EReal) (ix2 p k) = m ((c : Thread nD τ).loc main_arg0) (ix2 r (Lstm.halfCol 0 k)) := by
  obtain ⟨-, -, e0, e1⟩ := idx_a0 t h1
  show V m c main_v0 (((cfg0.win 0).blk (prev t)).view.emb (ix2 p k)) = _
  rw [V_x]
  refine congrArg _ (funext fun a => Fin.ext ?_)
  match a with
  | ⟨0, _⟩ => show win0_0.index (prev t) (0 : Fin 2) * 1024 + 1 * p.val = r.val; omega
  | ⟨1, _⟩ => show win0_0.index (prev t) (1 : Fin 2) * 1024 + 1 * k.val = 0 * 1024 + k.val; omega

/-- Row `p` of the h block here holds row `r` of the argument over the second half of the columns. -/
theorem h_read (p k : Fin 1024) (r : Fin 4096) (hr : r.val = win0_6.index t (0 : Fin 2) * 1024 + p.val) :
    (iblk m c 1 t : S1024x1024.Idx → EReal) (ix2 p k) = m ((c : Thread nD τ).loc main_arg1) (ix2 r (Lstm.halfCol 1 k)) := by
  obtain ⟨e0, e1, -, -⟩ := idx_a1 t h1
  show V m c main_v1 (((cfg0.win 1).blk t).view.emb (ix2 p k)) = _
  rw [V_h]
  refine congrArg _ (funext fun a => Fin.ext ?_)
  match a with
  | ⟨0, _⟩ => show win0_1.index t (0 : Fin 2) * 1024 + 1 * p.val = r.val; omega
  | ⟨1, _⟩ => show win0_1.index t (1 : Fin 2) * 1024 + 1 * k.val = 1 * 1024 + k.val; omega

/-- … and at the point before, over the first half of the columns. -/
theorem h_read_prev (p k : Fin 1024) (r : Fin 4096) (hr : r.val = win0_6.index t (0 : Fin 2) * 1024 + p.val) :
    (iblk m c 1 (prev t) : S1024x1024.Idx → EReal) (ix2 p k) = m ((c : Thread nD τ).loc main_arg1) (ix2 r (Lstm.halfCol 0 k)) := by
  obtain ⟨-, -, e0, e1⟩ := idx_a1 t h1
  show V m c main_v1 (((cfg0.win 1).blk (prev t)).view.emb (ix2 p k)) = _
  rw [V_h]
  refine congrArg _ (funext fun a => Fin.ext ?_)
  match a with
  | ⟨0, _⟩ => show win0_1.index (prev t) (0 : Fin 2) * 1024 + 1 * p.val = r.val; omega
  | ⟨1, _⟩ => show win0_1.index (prev t) (1 : Fin 2) * 1024 + 1 * k.val = 0 * 1024 + k.val; omega

/-- Slot `g`, row `q` of the wx block here holds row g·2048 + cl of the stacked weights over the second half of the columns. -/
theorem wx_read (g : Fin 4) (q : Fin 256) (k : Fin 1024) (cl : Fin 2048) (hcl : cl.val = win0_6.index t (1 : Fin 2) * 256 + q.val) :
    (iblk m c 2 t : S4x256x1024.Idx → EReal) (ix3 g q k) = m ((c : Thread nD τ).loc main_arg3) (ix2 (Lstm.gateRow g cl) (Lstm.halfCol 1 k)) := by
  obtain ⟨e0, e1, e2, -, -, -⟩ := idx_w2 t h1
  show V m c main_v3 (((cfg0.win 2).blk t).view.emb (ix3 g q k)) = _
  rw [V_wx]
  have e : ((cfg0.win 2).blk t).view.emb (ix3 g q k) = ix3 g cl (Lstm.halfCol 1 k) := funext fun a => Fin.ext (by
    match a with
    | ⟨0, _⟩ => show win0_2.index t (0 : Fin 3) * 4 + 1 * g.val = g.val; omega
    | ⟨1, _⟩ => show win0_2.index t (1 : Fin 3) * 256 + 1 * q.val = cl.val; omega
    | ⟨2, _⟩ => show win0_2.index t (2 : Fin 3) * 1024 + 1 * k.val = 1 * 1024 + k.val; omega)
  rw [e, regroupW_apply]

/-- … and at the point before, over the first half of the columns. -/
theorem wx_read_prev (g : Fin 4) (q : Fin 256) (k : Fin 1024) (cl : Fin 2048) (hcl : cl.val = win0_6.index t (1 : Fin 2) * 256 + q.val) :
    (iblk m c 2 (prev t) : S4x256x1024.Idx → EReal) (ix3 g q k) = m ((c : Thread nD τ).loc main_arg3) (ix2 (Lstm.gateRow g cl) (Lstm.halfCol 0 k)) := by
  obtain ⟨-, -, -, e0, e1, e2⟩ := idx_w2 t h1
  show V m c main_v3 (((cfg0.win 2).blk (prev t)).view.emb (ix3 g q k)) = _
  rw [V_wx]
  have e : ((cfg0.win 2).blk (prev t)).view.emb (ix3 g q k) = ix3 g cl (Lstm.halfCol 0 k) := funext fun a => Fin.ext (by
    match a with
    | ⟨0, _⟩ => show win0_2.index (prev t) (0 : Fin 3) * 4 + 1 * g.val = g.val; omega
    | ⟨1, _⟩ => show win0_2.index (prev t) (1 : Fin 3) * 256 + 1 * q.val = cl.val; omega
    | ⟨2, _⟩ => show win0_2.index (prev t) (2 : Fin 3) * 1024 + 1 * k.val = 0 * 1024 + k.val; omega)
  rw [e, regroupW_apply]

/-- Slot `g`, row `q` of the wh block here holds row g·2048 + cl of the stacked weights over the second half of the columns. -/
theorem wh_read (g : Fin 4) (q : Fin 256) (k : Fin 1024) (cl : Fin 2048) (hcl : cl.val = win0_6.index t (1 : Fin 2) * 256 + q.val) :
    (iblk m c 3 t : S4x256x1024.Idx → EReal) (ix3 g q k) = m ((c : Thread nD τ).loc main_arg5) (ix2 (Lstm.gateRow g cl) (Lstm.halfCol 1 k)) := by
  obtain ⟨e0, e1, e2, -, -, -⟩ := idx_w3 t h1
  show V m c main_v5 (((cfg0.win 3).blk t).view.emb (ix3 g q k)) = _
  rw [V_wh]
  have e : ((cfg0.win 3).blk t).view.emb (ix3 g q k) = ix3 g cl (Lstm.halfCol 1 k) := funext fun a => Fin.ext (by
    match a with
    | ⟨0, _⟩ => show win0_3.index t (0 : Fin 3) * 4 + 1 * g.val = g.val; omega
    | ⟨1, _⟩ => show win0_3.index t (1 : Fin 3) * 256 + 1 * q.val = cl.val; omega
    | ⟨2, _⟩ => show win0_3.index t (2 : Fin 3) * 1024 + 1 * k.val = 1 * 1024 + k.val; omega)
  rw [e, regroupW_apply]

/-- … and at the point before, over the first half of the columns. -/
theorem wh_read_prev (g : Fin 4) (q : Fin 256) (k : Fin 1024) (cl : Fin 2048) (hcl : cl.val = win0_6.index t (1 : Fin 2) * 256 + q.val) :
    (iblk m c 3 (prev t) : S4x256x1024.Idx → EReal) (ix3 g q k) = m ((c : Thread nD τ).loc main_arg5) (ix2 (Lstm.gateRow g cl) (Lstm.halfCol 0 k)) := by
  obtain ⟨-, -, -, e0, e1, e2⟩ := idx_w3 t h1
  show V m c main_v5 (((cfg0.win 3).blk (prev t)).view.emb (ix3 g q k)) = _
  rw [V_wh]
  have e : ((cfg0.win 3).blk (prev t)).view.emb (ix3 g q k) = ix3 g cl (Lstm.halfCol 0 k) := funext fun a => Fin.ext (by
    match a with
    | ⟨0, _⟩ => show win0_3.index (prev t) (0 : Fin 3) * 4 + 1 * g.val = g.val; omega
    | ⟨1, _⟩ => show win0_3.index (prev t) (1 : Fin 3) * 256 + 1 * q.val = cl.val; omega
    | ⟨2, _⟩ => show win0_3.index (prev t) (2 : Fin 3) * 1024 + 1 * k.val = 0 * 1024 + k.val; omega)
  rw [e, regroupW_apply]

/-- Row `g` of the bias block holds the two biases of row g·2048 + cl, added. -/
theorem b_read (g : Fin 4) (q : Fin 256) (cl : Fin 2048) (hcl : cl.val = win0_6.index t (1 : Fin 2) * 256 + q.val) :
    (iblk m c 4 t : S4x256.Idx → EReal) (ix2 g q)
      = HAdd.hAdd (α := EReal) (β := EReal) (γ := EReal) (m ((c : Thread nD τ).loc main_arg4) (ix1 (Lstm.gateRow g cl))) (m ((c : Thread nD τ).loc main_arg6) (ix1 (Lstm.gateRow g cl))) := by
  obtain ⟨e0, e1⟩ := idx_b t h1
  show V m c main_v7 (((cfg0.win 4).blk t).view.emb (ix2 g q)) = _
  rw [V_b]
  have e : ((cfg0.win 4).blk t).view.emb (ix2 g q) = ix2 g cl := funext fun a => Fin.ext (by
    match a with
    | ⟨0, _⟩ => show win0_4.index t (0 : Fin 2) * 4 + 1 * g.val = g.val; omega
    | ⟨1, _⟩ => show win0_4.index t (1 : Fin 2) * 256 + 1 * q.val = cl.val; omega)
  rw [e, regroupB_apply]

/-- The cell block holds c at the output block's rows and columns. -/
theorem c_read (p : Fin 1024) (q : Fin 256) (r : Fin 4096) (cl : Fin 2048)
    (hr : r.val = win0_6.index t (0 : Fin 2) * 1024 + p.val) (hcl : cl.val = win0_6.index t (1 : Fin 2) * 256 + q.val) :
    (iblk m c 5 t : S1024x256.Idx → EReal) (ix2 p q) = m ((c : Thread nD τ).loc main_arg2) (ix2 r cl) := by
  obtain ⟨e0, e1⟩ := idx_c t h1
  show V m c main_arg2 (((cfg0.win 5).blk t).view.emb (ix2 p q)) = _
  rw [V_main_arg2]
  refine congrArg _ (funext fun a => Fin.ext ?_)
  match a with
  | ⟨0, _⟩ => show win0_5.index t (0 : Fin 2) * 1024 + 1 * p.val = r.val; omega
  | ⟨1, _⟩ => show win0_5.index t (1 : Fin 2) * 256 + 1 * q.val = cl.val; omega

end Reads

/-! ## What a second-k-block point leaves, what is written back, and the arrays after the run -/

/-- The new hidden states, as the contents of the first result array. -/
abbrev hiddenRes (c : Dev nD) : Buf (Elt Ideal) ((c : Thread nD τ).loc main_v8_0) :=
  Lstm.hiddenArr (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6))

/-- The new cell states, as the contents of the second result array. -/
abbrev cellRes (c : Dev nD) : Buf (Elt Ideal) ((c : Thread nD τ).loc main_v8_1) :=
  Lstm.cellArr (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6))

section Outs
variable (c : Dev nD)

/-- What a second-k-block point leaves in the hidden output's buffer is its block of the hidden array: the accumulators it
    found are one step from zero over the first half of the columns, its own step adds the second half, and the
    epilogue entry is the specified one. -/
theorem outs_hidden (t : Fin cfg0.N) (h0 : ¬t.val % 2 = 0) (h1 : t.val % 2 = 1) :
    (outsAt0 m c t.val t.isLt).1 = ((cfg0.win 6).blk t).view.read (Elt Ideal) (hiddenRes m c) := by
  have hp0 : (prev t).val % 2 = 0 := by show (t.val - 1) % 2 = 0; omega
  have hp1 : ¬(prev t).val % 2 = 1 := by show ¬(t.val - 1) % 2 = 1; omega
  have hs : outsAt0 m c (t.val - 1) (Nat.lt_of_le_of_lt (Nat.sub_le _ _) t.isLt) = _ := outsAt0_A m c (prev t) hp0 hp1
  obtain ⟨-, -, o0, o1⟩ := idx_out t h1
  rw [outsAt0_B m c t h0 h1]
  dsimp only
  rw [hs]
  dsimp only
  rw [scratchA0 c (grid0.coords (prev t)) (ms0_0 (prev t)) (hs0_0 (prev t)) (ms0_1 (prev t)) (hs0_1 (prev t)) (ms0_2 (prev t)) (hs0_2 (prev t)) (ms0_3 (prev t)) (hs0_3 (prev t)) (ms0_4 (prev t)) (hs0_4 (prev t)) (ms0_5 (prev t)) (hs0_5 (prev t)) (ms0_6 (prev t)) (hs0_6 (prev t)) (ms0_7 (prev t)) (hs0_7 (prev t)) scM0_0 (Memref.isWhole_whole _) scM0_1 (Memref.isWhole_whole _) scM0_2 (Memref.isWhole_whole _) scM0_3 (Memref.isWhole_whole _) _ _ (iblk m c 0 (prev t)) (iblk m c 1 (prev t)) (iblk m c 2 (prev t)) (iblk m c 3 (prev t)) (iblk m c 4 (prev t)) (iblk m c 5 (prev t)),
    scratchA1 c (grid0.coords (prev t)) (ms0_0 (prev t)) (hs0_0 (prev t)) (ms0_1 (prev t)) (hs0_1 (prev t)) (ms0_2 (prev t)) (hs0_2 (prev t)) (ms0_3 (prev t)) (hs0_3 (prev t)) (ms0_4 (prev t)) (hs0_4 (prev t)) (ms0_5 (prev t)) (hs0_5 (prev t)) (ms0_6 (prev t)) (hs0_6 (prev t)) (ms0_7 (prev t)) (hs0_7 (prev t)) scM0_0 (Memref.isWhole_whole _) scM0_1 (Memref.isWhole_whole _) scM0_2 (Memref.isWhole_whole _) scM0_3 (Memref.isWhole_whole _) _ _ (iblk m c 0 (prev t)) (iblk m c 1 (prev t)) (iblk m c 2 (prev t)) (iblk m c 3 (prev t)) (iblk m c 4 (prev t)) (iblk m c 5 (prev t)),
    scratchA2 c (grid0.coords (prev t)) (ms0_0 (prev t)) (hs0_0 (prev t)) (ms0_1 (prev t)) (hs0_1 (prev t)) (ms0_2 (prev t)) (hs0_2 (prev t)) (ms0_3 (prev t)) (hs0_3 (prev t)) (ms0_4 (prev t)) (hs0_4 (prev t)) (ms0_5 (prev t)) (hs0_5 (prev t)) (ms0_6 (prev t)) (hs0_6 (prev t)) (ms0_7 (prev t)) (hs0_7 (prev t)) scM0_0 (Memref.isWhole_whole _) scM0_1 (Memref.isWhole_whole _) scM0_2 (Memref.isWhole_whole _) scM0_3 (Memref.isWhole_whole _) _ _ (iblk m c 0 (prev t)) (iblk m c 1 (prev t)) (iblk m c 2 (prev t)) (iblk m c 3 (prev t)) (iblk m c 4 (prev t)) (iblk m c 5 (prev t)),
    scratchA3 c (grid0.coords (prev t)) (ms0_0 (prev t)) (hs0_0 (prev t)) (ms0_1 (prev t)) (hs0_1 (prev t)) (ms0_2 (prev t)) (hs0_2 (prev t)) (ms0_3 (prev t)) (hs0_3 (prev t)) (ms0_4 (prev t)) (hs0_4 (prev t)) (ms0_5 (prev t)) (hs0_5 (prev t)) (ms0_6 (prev t)) (hs0_6 (prev t)) (ms0_7 (prev t)) (hs0_7 (prev t)) scM0_0 (Memref.isWhole_whole _) scM0_1 (Memref.isWhole_whole _) scM0_2 (Memref.isWhole_whole _) scM0_3 (Memref.isWhole_whole _) _ _ (iblk m c 0 (prev t)) (iblk m c 1 (prev t)) (iblk m c 2 (prev t)) (iblk m c 3 (prev t)) (iblk m c 4 (prev t)) (iblk m c 5 (prev t))]
  rw [hiddenB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) _ _ (iblk m c 0 t) (iblk m c 1 t) (iblk m c 2 t) (iblk m c 3 t) (iblk m c 4 t) (iblk m c 5 t)
    (acc0 (iblk m c 0 (prev t)) (iblk m c 1 (prev t)) (k0_pay3 (F := Ideal)) (iblk m c 2 (prev t)) (iblk m c 3 (prev t))) (acc1 (iblk m c 0 (prev t)) (iblk m c 1 (prev t)) (k0_pay4 (F := Ideal)) (iblk m c 2 (prev t)) (iblk m c 3 (prev t))) (acc2 (iblk m c 0 (prev t)) (iblk m c 1 (prev t)) (k0_pay5 (F := Ideal)) (iblk m c 2 (prev t)) (iblk m c 3 (prev t))) (acc3 (iblk m c 0 (prev t)) (iblk m c 1 (prev t)) (k0_pay6 (F := Ideal)) (iblk m c 2 (prev t)) (iblk m c 3 (prev t)))]
  funext j
  obtain ⟨p, q, rfl⟩ : ∃ (p : Fin 1024) (q : Fin 256), j = ix2 p q := ⟨j 0, j 1, eq_ix2 j⟩
  rw [View.read_apply]
  show _ = Lstm.hiddenNew _ _ _ _ _ _ _ ((((cfg0.win 6).blk t).view.emb (ix2 p q)) 0) ((((cfg0.win 6).blk t).view.emb (ix2 p q)) 1)
  have hr : ((((cfg0.win 6).blk t).view.emb (ix2 p q)) 0).val = win0_6.index t (0 : Fin 2) * 1024 + p.val := by
    show win0_6.index t (0 : Fin 2) * 1024 + 1 * p.val = _; omega
  have hcl : ((((cfg0.win 6).blk t).view.emb (ix2 p q)) 1).val = win0_6.index t (1 : Fin 2) * 256 + q.val := by
    show win0_6.index t (1 : Fin 2) * 256 + 1 * q.val = _; omega
  exact hidden_entry (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6))
    (iblk m c 0 (prev t)) (iblk m c 1 (prev t)) (iblk m c 0 t) (iblk m c 1 t) (iblk m c 2 (prev t)) (iblk m c 3 (prev t)) (iblk m c 2 t) (iblk m c 3 t)
    (iblk m c 4 t) (iblk m c 5 t) _ _ p q
    (fun k => x_read_prev m c t h1 p k _ hr) (fun k => h_read_prev m c t h1 p k _ hr)
    (fun k => x_read m c t h1 p k _ hr) (fun k => h_read m c t h1 p k _ hr)
    (fun g k => wx_read_prev m c t h1 g q k _ hcl) (fun g k => wh_read_prev m c t h1 g q k _ hcl)
    (fun g k => wx_read m c t h1 g q k _ hcl) (fun g k => wh_read m c t h1 g q k _ hcl)
    (fun g => b_read m c t h1 g q _ hcl) (c_read m c t h1 p q _ _ hr hcl)

/-- What a second-k-block point leaves in the cell output's buffer is its block of the cell array: the accumulators it
    found are one step from zero over the first half of the columns, its own step adds the second half, and the
    epilogue entry is the specified one. -/
theorem outs_cell (t : Fin cfg0.N) (h0 : ¬t.val % 2 = 0) (h1 : t.val % 2 = 1) :
    (outsAt0 m c t.val t.isLt).2.1 = ((cfg0.win 7).blk t).view.read (Elt Ideal) (cellRes m c) := by
  have hp0 : (prev t).val % 2 = 0 := by show (t.val - 1) % 2 = 0; omega
  have hp1 : ¬(prev t).val % 2 = 1 := by show ¬(t.val - 1) % 2 = 1; omega
  have hs : outsAt0 m c (t.val - 1) (Nat.lt_of_le_of_lt (Nat.sub_le _ _) t.isLt) = _ := outsAt0_A m c (prev t) hp0 hp1
  obtain ⟨-, -, o0, o1⟩ := idx_out t h1
  rw [outsAt0_B m c t h0 h1]
  dsimp only
  rw [hs]
  dsimp only
  rw [scratchA0 c (grid0.coords (prev t)) (ms0_0 (prev t)) (hs0_0 (prev t)) (ms0_1 (prev t)) (hs0_1 (prev t)) (ms0_2 (prev t)) (hs0_2 (prev t)) (ms0_3 (prev t)) (hs0_3 (prev t)) (ms0_4 (prev t)) (hs0_4 (prev t)) (ms0_5 (prev t)) (hs0_5 (prev t)) (ms0_6 (prev t)) (hs0_6 (prev t)) (ms0_7 (prev t)) (hs0_7 (prev t)) scM0_0 (Memref.isWhole_whole _) scM0_1 (Memref.isWhole_whole _) scM0_2 (Memref.isWhole_whole _) scM0_3 (Memref.isWhole_whole _) _ _ (iblk m c 0 (prev t)) (iblk m c 1 (prev t)) (iblk m c 2 (prev t)) (iblk m c 3 (prev t)) (iblk m c 4 (prev t)) (iblk m c 5 (prev t)),
    scratchA1 c (grid0.coords (prev t)) (ms0_0 (prev t)) (hs0_0 (prev t)) (ms0_1 (prev t)) (hs0_1 (prev t)) (ms0_2 (prev t)) (hs0_2 (prev t)) (ms0_3 (prev t)) (hs0_3 (prev t)) (ms0_4 (prev t)) (hs0_4 (prev t)) (ms0_5 (prev t)) (hs0_5 (prev t)) (ms0_6 (prev t)) (hs0_6 (prev t)) (ms0_7 (prev t)) (hs0_7 (prev t)) scM0_0 (Memref.isWhole_whole _) scM0_1 (Memref.isWhole_whole _) scM0_2 (Memref.isWhole_whole _) scM0_3 (Memref.isWhole_whole _) _ _ (iblk m c 0 (prev t)) (iblk m c 1 (prev t)) (iblk m c 2 (prev t)) (iblk m c 3 (prev t)) (iblk m c 4 (prev t)) (iblk m c 5 (prev t)),
    scratchA2 c (grid0.coords (prev t)) (ms0_0 (prev t)) (hs0_0 (prev t)) (ms0_1 (prev t)) (hs0_1 (prev t)) (ms0_2 (prev t)) (hs0_2 (prev t)) (ms0_3 (prev t)) (hs0_3 (prev t)) (ms0_4 (prev t)) (hs0_4 (prev t)) (ms0_5 (prev t)) (hs0_5 (prev t)) (ms0_6 (prev t)) (hs0_6 (prev t)) (ms0_7 (prev t)) (hs0_7 (prev t)) scM0_0 (Memref.isWhole_whole _) scM0_1 (Memref.isWhole_whole _) scM0_2 (Memref.isWhole_whole _) scM0_3 (Memref.isWhole_whole _) _ _ (iblk m c 0 (prev t)) (iblk m c 1 (prev t)) (iblk m c 2 (prev t)) (iblk m c 3 (prev t)) (iblk m c 4 (prev t)) (iblk m c 5 (prev t)),
    scratchA3 c (grid0.coords (prev t)) (ms0_0 (prev t)) (hs0_0 (prev t)) (ms0_1 (prev t)) (hs0_1 (prev t)) (ms0_2 (prev t)) (hs0_2 (prev t)) (ms0_3 (prev t)) (hs0_3 (prev t)) (ms0_4 (prev t)) (hs0_4 (prev t)) (ms0_5 (prev t)) (hs0_5 (prev t)) (ms0_6 (prev t)) (hs0_6 (prev t)) (ms0_7 (prev t)) (hs0_7 (prev t)) scM0_0 (Memref.isWhole_whole _) scM0_1 (Memref.isWhole_whole _) scM0_2 (Memref.isWhole_whole _) scM0_3 (Memref.isWhole_whole _) _ _ (iblk m c 0 (prev t)) (iblk m c 1 (prev t)) (iblk m c 2 (prev t)) (iblk m c 3 (prev t)) (iblk m c 4 (prev t)) (iblk m c 5 (prev t))]
  rw [cellB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) _ _ (iblk m c 0 t) (iblk m c 1 t) (iblk m c 2 t) (iblk m c 3 t) (iblk m c 4 t) (iblk m c 5 t)
    (acc0 (iblk m c 0 (prev t)) (iblk m c 1 (prev t)) (k0_pay3 (F := Ideal)) (iblk m c 2 (prev t)) (iblk m c 3 (prev t))) (acc1 (iblk m c 0 (prev t)) (iblk m c 1 (prev t)) (k0_pay4 (F := Ideal)) (iblk m c 2 (prev t)) (iblk m c 3 (prev t))) (acc2 (iblk m c 0 (prev t)) (iblk m c 1 (prev t)) (k0_pay5 (F := Ideal)) (iblk m c 2 (prev t)) (iblk m c 3 (prev t))) (acc3 (iblk m c 0 (prev t)) (iblk m c 1 (prev t)) (k0_pay6 (F := Ideal)) (iblk m c 2 (prev t)) (iblk m c 3 (prev t)))]
  funext j
  obtain ⟨p, q, rfl⟩ : ∃ (p : Fin 1024) (q : Fin 256), j = ix2 p q := ⟨j 0, j 1, eq_ix2 j⟩
  rw [View.read_apply]
  show _ = Lstm.cellNew _ _ _ _ _ _ _ ((((cfg0.win 7).blk t).view.emb (ix2 p q)) 0) ((((cfg0.win 7).blk t).view.emb (ix2 p q)) 1)
  have hr : ((((cfg0.win 7).blk t).view.emb (ix2 p q)) 0).val = win0_6.index t (0 : Fin 2) * 1024 + p.val := by
    show win0_7.index t (0 : Fin 2) * 1024 + 1 * p.val = _; omega
  have hcl : ((((cfg0.win 7).blk t).view.emb (ix2 p q)) 1).val = win0_6.index t (1 : Fin 2) * 256 + q.val := by
    show win0_7.index t (1 : Fin 2) * 256 + 1 * q.val = _; omega
  exact cell_entry (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6))
    (iblk m c 0 (prev t)) (iblk m c 1 (prev t)) (iblk m c 0 t) (iblk m c 1 t) (iblk m c 2 (prev t)) (iblk m c 3 (prev t)) (iblk m c 2 t) (iblk m c 3 t)
    (iblk m c 4 t) (iblk m c 5 t) _ _ p q
    (fun k => x_read_prev m c t h1 p k _ hr) (fun k => h_read_prev m c t h1 p k _ hr)
    (fun k => x_read m c t h1 p k _ hr) (fun k => h_read m c t h1 p k _ hr)
    (fun g k => wx_read_prev m c t h1 g q k _ hcl) (fun g k => wh_read_prev m c t h1 g q k _ hcl)
    (fun g k => wx_read m c t h1 g q k _ hcl) (fun g k => wh_read m c t h1 g q k _ hcl)
    (fun g => b_read m c t h1 g q _ hcl) (c_read m c t h1 p q _ _ hr hcl)

/-- What a point writes back to the hidden array is its block of the hidden array. -/
theorem flushed6_eq (t : Fin cfg0.N) (hf : (cfg0.win 6).flush t = true) :
    (dats m 0 c).flushed 6 t = ((cfg0.win 6).blk t).view.read (Elt Ideal) (hiddenRes m c) := by
  have h1 : t.val % 2 = 1 := (flush0_6 t).mp hf
  have h0 : ¬t.val % 2 = 0 := by omega
  rw [Value.flushed6, outs_hidden m c t h0 h1]

/-- An index of the hidden array is in a point's block iff each coordinate is in the block's range. -/
theorem mem_blk6 (t : Fin cfg0.N) (i : S4096x2048.Idx) :
    i ∈ ((cfg0.win 6).blk t).view.set ↔ ∀ a : Fin 2, win0_6.index t a * S1024x256.size a ≤ (i a).val ∧ (i a).val < win0_6.index t a * S1024x256.size a + S1024x256.size a := by
  show i ∈ ((View.whole main_v8_0).slice (win0_6.rect t)).set ↔ _
  rw [View.set_slice_whole, Rect.mem_set_unit]
  exact Iff.rfl

/-- Every entry of the hidden array is in the block of the point (row / 1024, column / 256, second k-block). -/
theorem cover6 (i : S4096x2048.Idx) : ∃ t : Fin cfg0.N, (cfg0.win 6).flush t = true ∧ i ∈ ((cfg0.win 6).blk t).view.set := by
  have hi0 : (i 0).val < 4096 := (i 0).isLt
  have hi1 : (i 1).val < 2048 := (i 1).isLt
  obtain ⟨t, h1, ht⟩ := idx_onto ⟨(i 0).val / 1024, by omega⟩ ⟨(i 1).val / 256, by omega⟩
  have q0 : win0_6.index t (0 : Fin 2) = (i 0).val / 1024 := congrFun ht 0
  have q1 : win0_6.index t (1 : Fin 2) = (i 1).val / 256 := congrFun ht 1
  obtain ⟨-, -, o0, o1⟩ := idx_out t h1
  refine ⟨t, (flush0_6 t).mpr h1, ?_⟩
  rw [mem_blk6]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 256 ≤ (i 1).val ∧ (i 1).val < win0_6.index t (1 : Fin 2) * 256 + 256; omega

/-- After the run the hidden array holds the specified hidden states. -/
theorem final6 : (dats m 0 c).arrAt 6 cfg0.N = hiddenRes m c :=
  (dats m 0 c).arrAt_eq_of_cover 6 (hiddenRes m c) (flushed6_eq m c) (cover6)

/-- What a point writes back to the cell array is its block of the cell array. -/
theorem flushed7_eq (t : Fin cfg0.N) (hf : (cfg0.win 7).flush t = true) :
    (dats m 0 c).flushed 7 t = ((cfg0.win 7).blk t).view.read (Elt Ideal) (cellRes m c) := by
  have h1 : t.val % 2 = 1 := (flush0_7 t).mp hf
  have h0 : ¬t.val % 2 = 0 := by omega
  rw [Value.flushed7, outs_cell m c t h0 h1]

/-- An index of the cell array is in a point's block iff each coordinate is in the block's range. -/
theorem mem_blk7 (t : Fin cfg0.N) (i : S4096x2048.Idx) :
    i ∈ ((cfg0.win 7).blk t).view.set ↔ ∀ a : Fin 2, win0_7.index t a * S1024x256.size a ≤ (i a).val ∧ (i a).val < win0_7.index t a * S1024x256.size a + S1024x256.size a := by
  show i ∈ ((View.whole main_v8_1).slice (win0_7.rect t)).set ↔ _
  rw [View.set_slice_whole, Rect.mem_set_unit]
  exact Iff.rfl

/-- Every entry of the cell array is in the block of the point (row / 1024, column / 256, second k-block). -/
theorem cover7 (i : S4096x2048.Idx) : ∃ t : Fin cfg0.N, (cfg0.win 7).flush t = true ∧ i ∈ ((cfg0.win 7).blk t).view.set := by
  have hi0 : (i 0).val < 4096 := (i 0).isLt
  have hi1 : (i 1).val < 2048 := (i 1).isLt
  obtain ⟨t, h1, ht⟩ := idx_onto ⟨(i 0).val / 1024, by omega⟩ ⟨(i 1).val / 256, by omega⟩
  have q0 : win0_6.index t (0 : Fin 2) = (i 0).val / 1024 := congrFun ht 0
  have q1 : win0_6.index t (1 : Fin 2) = (i 1).val / 256 := congrFun ht 1
  obtain ⟨-, -, o0, o1⟩ := idx_out t h1
  refine ⟨t, (flush0_7 t).mpr h1, ?_⟩
  rw [mem_blk7]
  intro a
  match a with
  | ⟨0, _⟩ => show win0_7.index t (0 : Fin 2) * 1024 ≤ (i 0).val ∧ (i 0).val < win0_7.index t (0 : Fin 2) * 1024 + 1024; omega
  | ⟨1, _⟩ => show win0_7.index t (1 : Fin 2) * 256 ≤ (i 1).val ∧ (i 1).val < win0_7.index t (1 : Fin 2) * 256 + 256; omega

/-- After the run the cell array holds the specified cell states. -/
theorem final7 : (dats m 0 c).arrAt 7 cfg0.N = cellRes m c :=
  (dats m 0 c).arrAt_eq_of_cover 7 (cellRes m c) (flushed7_eq m c) (cover7)

end Outs

/-- The run, read: the two result arrays at the specified hidden and cell states, the arguments unchanged. -/
theorem run : θ_run defs (onTc (τ := τ) (main (F := Ideal))) ⟨m, fun _ => 0, ρ⟩ fun r => ∀ c : Dev nD,
      r.2.mem ((c : Thread nD τ).loc main_v8_0) = hiddenRes m c
      ∧ r.2.mem ((c : Thread nD τ).loc main_v8_1) = cellRes m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final6 m c), (h c).2.1.trans (final7 m c), (h c).2.2⟩)
    (Value.run_blocks m ρ)

end Cert.KernelIdeal.Arrays

end
-- ==== Proof.RefValue.lean ====
/-
  The reference computes the same function: its two results are the new hidden and cell states of its arguments.

  The reference forms the whole 4096 × 8192 gates array x·Wxᵀ + h·Whᵀ + bx + bh (each bias broadcast down the rows),
  cuts it into four column slices of width 2048 — slice g holds gate g, column g·2048 + j of the gates array being
  row g·2048 + j of the stacked weights —, applies 1 / (1 + e^(-z)) to slices 0, 1, 3 and tanh to slice 2, and
  combines them with c. On the extended reals 1 / (1 + e^(-z)) with the host's negation, exponential, sum and quotient
  is the logistic function, the literal 1.0 being the real number one.
-/
import proofs.«129315_j25950192402731_2_alg».proof.Proof.Gen.ReferenceIdeal.Read
import proofs.«129315_j25950192402731_2_alg».proof.Proof.GateSpec
import Idealize.ShloMosaic.Lib.IdealHost

noncomputable section

open scoped BigOperators
open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read

variable (x0 x1 x2 : (⟨S4096x2048, .f32⟩ : BufTy).Contents (Elt Ideal)) (x3 x5 : (⟨S8192x2048, .f32⟩ : BufTy).Contents (Elt Ideal))
  (x4 x6 : (⟨S8192, .f32⟩ : BufTy).Contents (Elt Ideal))

/-- The gates array at (b, n): the two contractions with row n of the stacked weights, then the two biases at n. -/
theorem gates_apply (b : Fin 4096) (n : Fin 8192) :
    val_main_v8 (F := Ideal) x0 x1 x3 x4 x5 x6 (ix2 b n)
      = ((Lstm.dotRow x0 x3 b n + Lstm.dotRow x1 x5 b n) + x4 (ix1 n)) + x6 (ix1 n) := by
  have e0 : ∀ k : Fin 2048, lidx_main_v0 (ix2 b n) k = ix2 b k := fun k => funext fun a => Fin.ext (by
    match a with | ⟨0, _⟩ => rfl | ⟨1, _⟩ => rfl)
  have e1 : ∀ k : Fin 2048, ridx_main_v0 (ix2 b n) k = ix2 n k := fun k => funext fun a => Fin.ext (by
    match a with | ⟨0, _⟩ => rfl | ⟨1, _⟩ => rfl)
  have e2 : ∀ k : Fin 2048, lidx_main_v1 (ix2 b n) k = ix2 b k := fun k => funext fun a => Fin.ext (by
    match a with | ⟨0, _⟩ => rfl | ⟨1, _⟩ => rfl)
  have e3 : ∀ k : Fin 2048, ridx_main_v1 (ix2 b n) k = ix2 n k := fun k => funext fun a => Fin.ext (by
    match a with | ⟨0, _⟩ => rfl | ⟨1, _⟩ => rfl)
  have e4 : idx_main_v3 (idx_main_v4 (ix2 b n)) = ix1 n := funext fun a => Fin.ext (by
    match a with | ⟨0, _⟩ => rfl)
  have e5 : idx_main_v6 (idx_main_v7 (ix2 b n)) = ix1 n := funext fun a => Fin.ext (by
    match a with | ⟨0, _⟩ => rfl)
  rw [val_main_v8_apply, val_main_v5_apply, val_main_v2_apply, val_main_v0_apply, val_main_v1_apply, val_main_v4_apply,
    val_main_v3_apply, val_main_v7_apply, val_main_v6_apply]
  simp only [e0, e1, e2, e3, e4, e5, Ideal.addf_def]
  rfl

/-- Slice 0 of the gates array (columns 0..2047) is gate 0's pre-activation. -/
theorem slice0_apply (b : Fin 4096) (j : Fin 2048) :
    val_main_v9 (F := Ideal) x0 x1 x3 x4 x5 x6 (ix2 b j) = Lstm.pre x0 x1 x3 x5 x4 x6 0 b j := by
  have e : idx_main_v9 (ix2 b j) = ix2 b (Lstm.gateRow 0 j) := funext fun a => Fin.ext (by
    match a with
    | ⟨0, _⟩ => rfl
    | ⟨1, _⟩ => show j.val = 0 * 2048 + j.val; omega)
  rw [val_main_v9_apply, e, gates_apply]
  rfl

/-- Slice 1 of the gates array (columns 2048..4095) is gate 1's pre-activation. -/
theorem slice1_apply (b : Fin 4096) (j : Fin 2048) :
    val_main_v10 (F := Ideal) x0 x1 x3 x4 x5 x6 (ix2 b j) = Lstm.pre x0 x1 x3 x5 x4 x6 1 b j := by
  have e : idx_main_v10 (ix2 b j) = ix2 b (Lstm.gateRow 1 j) := funext fun a => Fin.ext (by
    match a with
    | ⟨0, _⟩ => rfl
    | ⟨1, _⟩ => show 2048 + j.val = 1 * 2048 + j.val; omega)
  rw [val_main_v10_apply, e, gates_apply]
  rfl

/-- Slice 2 of the gates array (columns 4096..6143) is gate 2's pre-activation. -/
theorem slice2_apply (b : Fin 4096) (j : Fin 2048) :
    val_main_v11 (F := Ideal) x0 x1 x3 x4 x5 x6 (ix2 b j) = Lstm.pre x0 x1 x3 x5 x4 x6 2 b j := by
  have e : idx_main_v11 (ix2 b j) = ix2 b (Lstm.gateRow 2 j) := funext fun a => Fin.ext (by
    match a with
    | ⟨0, _⟩ => rfl
    | ⟨1, _⟩ => show 4096 + j.val = 2 * 2048 + j.val; omega)
  rw [val_main_v11_apply, e, gates_apply]
  rfl

/-- Slice 3 of the gates array (columns 6144..8191) is gate 3's pre-activation. -/
theorem slice3_apply (b : Fin 4096) (j : Fin 2048) :
    val_main_v12 (F := Ideal) x0 x1 x3 x4 x5 x6 (ix2 b j) = Lstm.pre x0 x1 x3 x5 x4 x6 3 b j := by
  have e : idx_main_v12 (ix2 b j) = ix2 b (Lstm.gateRow 3 j) := funext fun a => Fin.ext (by
    match a with
    | ⟨0, _⟩ => rfl
    | ⟨1, _⟩ => show 6144 + j.val = 3 * 2048 + j.val; omega)
  rw [val_main_v12_apply, e, gates_apply]
  rfl

/-- One over one plus the exponential of the negation, in the host's operations, is the logistic function. -/
theorem host_sigmoid (z : EReal) :
    FloatOps.hostDivf (F := Ideal) (φ := .f32) (FloatOps.ofBits .f32 0x3F800000#32)
        (FloatOps.addf (FloatOps.ofBits .f32 0x3F800000#32) (FloatOps.hostUnary .exp (FloatOps.hostNegf z)))
      = Ideal.logistic z := by
  simp only [Ideal.hostDivf_def, Ideal.addf_def, Ideal.hostUnary_exp_def, Ideal.hostNegf_def, Ideal.negf_def, Ideal.ofBits_def,
    Ideal.ofBits_one_f32]
  rfl

/-- The reference's second result is the new cell state. -/
theorem cell_ref : val_main_v34 (F := Ideal) x0 x1 x2 x3 x4 x5 x6 = Lstm.cellArr x0 x1 x2 x3 x5 x4 x6 := by
  funext i
  obtain ⟨b, j, rfl⟩ : ∃ (b : Fin 4096) (j : Fin 2048), i = ix2 b j := ⟨i 0, i 1, eq_ix2 i⟩
  simp only [val_main_v34_apply, val_main_v32_apply, val_main_v33_apply, val_main_v31_apply, val_main_v24_apply, val_main_v23_apply,
    val_main_cst_2_apply, val_main_v22_apply, val_main_v21_apply, val_main_cst_1_apply, val_main_v20_apply, val_main_v19_apply,
    val_main_v18_apply, val_main_v17_apply, val_main_cst_0_apply, val_main_v16_apply, val_main_v15_apply, val_main_cst_apply,
    val_main_v14_apply, val_main_v13_apply, slice0_apply, slice1_apply, slice2_apply, host_sigmoid]
  simp only [Ideal.mulf_def, Ideal.addf_def, Ideal.hostUnary_tanh_def]
  rfl

/-- The reference's first result is the new hidden state. -/
theorem hidden_ref : val_main_v36 (F := Ideal) x0 x1 x2 x3 x4 x5 x6 = Lstm.hiddenArr x0 x1 x2 x3 x5 x4 x6 := by
  funext i
  obtain ⟨b, j, rfl⟩ : ∃ (b : Fin 4096) (j : Fin 2048), i = ix2 b j := ⟨i 0, i 1, eq_ix2 i⟩
  rw [val_main_v36_apply, val_main_v35_apply, cell_ref]
  simp only [val_main_v30_apply, val_main_v29_apply, val_main_cst_4_apply, val_main_v28_apply, val_main_v27_apply,
    val_main_cst_3_apply, val_main_v26_apply, val_main_v25_apply, slice3_apply, host_sigmoid]
  simp only [Ideal.mulf_def, Ideal.hostUnary_tanh_def]
  rfl

end Cert.ReferenceIdeal.RefValue

end
-- ==== Proof.lean ====
/-
  A fused LSTM cell against its plain formula, on the extended reals.

  Both programs take x, h, c (4096 × 2048), the stacked gate weights Wx, Wh (8192 × 2048, gate g in rows g·2048..) and
  the stacked biases bx, bh, and return the new hidden and cell states: with
      z g = x·Wxᵀ + h·Whᵀ + bx + bh  restricted to gate g's rows,
  the new cell state is σ(z 1)·c + σ(z 0)·tanh(z 2) and the new hidden state σ(z 3)·tanh(new cell state).

  The kernel computes each 1024 × 256 output block over a grid of (row block, column block, k-block): four gate
  accumulators start at zero, each k-block adds its x-product plus its h-product over 1024 columns of the contraction
  axis, and after the second k-block the summed bias is added and the gates are applied. The reference forms the whole
  gates array, adds the two biases one after the other, and cuts it into the four gates. The two differ only in how one
  finite sum is grouped — two halves of the contraction axis from zero, and (bx + bh) against + bx + bh — and addition of
  extended reals is commutative and associative, so they agree at every entry with no finiteness assumption; the
  logistic function is one function on both sides (1 / (1 + e^(-z)) spelt out on the host), and so is tanh.

  Module by module: GateSpec states the cell as one function of the arguments and proves the regrouping; KernelPieces,
  KernelBlock and KernelEntry read what a grid point leaves, entry by entry; KernelArrays carries the blocks to the two
  result arrays and restates the kernel's run; RefValue shows the reference's two results are the same function. The
  three frames are the programs' own runs; the idealization rewrote nothing, so its claim is trivial.
-/
import proofs.«129315_j25950192402731_2_alg».proof.Defs
import proofs.«129315_j25950192402731_2_alg».proof.Proof.Gen.Kernel
import proofs.«129315_j25950192402731_2_alg».proof.Proof.Gen.Kernel.Skeleton
import proofs.«129315_j25950192402731_2_alg».proof.Proof.Gen.Kernel.Launch
import proofs.«129315_j25950192402731_2_alg».proof.Proof.Gen.Kernel.Points
import proofs.«129315_j25950192402731_2_alg».proof.Proof.Gen.Kernel.Frame
import proofs.«129315_j25950192402731_2_alg».proof.Proof.Gen.KernelIdeal
import proofs.«129315_j25950192402731_2_alg».proof.Proof.Gen.KernelIdeal.Skeleton
import proofs.«129315_j25950192402731_2_alg».proof.Proof.Gen.KernelIdeal.Launch
import proofs.«129315_j25950192402731_2_alg».proof.Proof.Gen.KernelIdeal.Points
import proofs.«129315_j25950192402731_2_alg».proof.Proof.Gen.KernelIdeal.Frame
import proofs.«129315_j25950192402731_2_alg».proof.Proof.Gen.ReferenceIdeal
import proofs.«129315_j25950192402731_2_alg».proof.Proof.Gen.Pre_finite_inputs
import proofs.«129315_j25950192402731_2_alg».proof.Proof.Gen.KernelIdeal.Value
import proofs.«129315_j25950192402731_2_alg».proof.Proof.Gen.ReferenceIdeal.Run
import proofs.«129315_j25950192402731_2_alg».proof.Proof.Gen.ReferenceIdeal.Read
import proofs.«129315_j25950192402731_2_alg».proof.Proof.KernelArrays
import proofs.«129315_j25950192402731_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- So does the reference: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From arguments that agree, the kernel's two result arrays and the reference's two results are the new hidden and
    cell states of those arguments: the same arrays. -/
theorem algebraic : Cert.algebraic_KernelIdeal_ReferenceIdeal := by
  intro m ρ m' ρ' _ hagree
  refine ⟨fun c => Cert.KernelIdeal.Arrays.hiddenRes m c, fun c => Cert.KernelIdeal.Arrays.cellRes m c,
    Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v36_eq, Cert.ReferenceIdeal.RefValue.hidden_ref, (hagree c).1, (hagree c).2.1, (hagree c).2.2.1, (hagree c).2.2.2.1, (hagree c).2.2.2.2.1, (hagree c).2.2.2.2.2.1, (hagree c).2.2.2.2.2.2]
  · rw [Cert.ReferenceIdeal.Read.val_main_v34_eq, Cert.ReferenceIdeal.RefValue.cell_ref, (hagree c).1, (hagree c).2.1, (hagree c).2.2.1, (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
